-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S64x128 : Shape := ⟨2, ![64, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S64x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S64x128 : Shape := ⟨2, ![64, 128]⟩
abbrev S10000x64 : Shape := ⟨2, ![10000, 64]⟩
abbrev S400x10000 : Shape := ⟨2, ![400, 10000]⟩
abbrev S400x64 : Shape := ⟨2, ![400, 64]⟩
abbrev S400x128 : Shape := ⟨2, ![400, 128]⟩
abbrev S400 : Shape := ⟨1, ![400]⟩
abbrev S400x1 : Shape := ⟨2, ![400, 1]⟩

abbrev nBuf : Space → Nat
  | .hbm => 5
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S64x128, .f32⟩
  | .hbm, ⟨4, _⟩ => ⟨S10000x64, .f32⟩
  | .local _ .vmem, ⟨0, _⟩ => ⟨S10000x128, .f32⟩
  | .local _ .vmem, ⟨1, _⟩ => ⟨S128x128, .f32⟩
  | .local _ .vmem, ⟨2, _⟩ => ⟨S400x10000, .f32⟩
  | .local _ .vmem, ⟨3, _⟩ => ⟨S400x10000, .f32⟩
  | .local _ .vmem, ⟨4, _⟩ => ⟨S64x128, .f32⟩
  | .local _ .vmem, ⟨5, _⟩ => ⟨S400x64, .f32⟩
  | .local _ .vmem, ⟨6, _⟩ => ⟨S400x64, .f32⟩
  | .local _ .vmem, ⟨7, _⟩ => ⟨S10000x128, .bf16⟩
  | .local _ .vmem, ⟨8, _⟩ => ⟨S10000x64, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_3 : BitVec 32 := 0#32
  let v7 : BitVec 1 := Scalar.cmpi .eq arg0 c0_i32_3
  let v8 : BitVec 32 := Scalar.extui v7
  let c0_i32_4 : BitVec 32 := 0#32
  let v9 : BitVec 1 := Scalar.cmpi .ne v8 c0_i32_4
  v9

def k0_off1 (i : grid0.Coords) : Fin 2 → Nat :=
  let arg1 : BitVec 32 := BitVec.ofNat 32 (i 1).val
  let c400_i32 : BitVec 32 := 400#32
  let v21 : BitVec 32 := Scalar.muli arg1 c400_i32
  let v22 : Index := Scalar.indexCast v21
  let c0_12 : Index := 0#32
  ![v22.toNat, 0]
def k0_cond3 (i : grid0.Coords) : BitVec 1 :=
  let arg0 : BitVec 32 := BitVec.ofNat 32 (i 0).val
  let c1_i32 : BitVec 32 := 1#32
  let v10 : BitVec 1 := Scalar.cmpi .eq arg0 c1_i32
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S400x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S64x128_S64x128_0_0 : ∀ a, (![0, 0] : Fin 2 → Nat) a + S64x128.size a ≤ S64x128.size a
  h_S64x128 : 0 < S64x128.numel
  h_S400x64 : 0 < S400x64.numel
  shapeCasts_S400x64_S400x64 : S400x64.ShapeCasts S400x64
  inb_S10000x64_S10000x64_0_0 : ∀ a, (![0, 0] : Fin 2 → Nat) a + S10000x64.size a ≤ S10000x64.size a
  h_S10000x64 : 0 < S10000x64.numel
  reduces_S400x64_S400 : S400x64.Reduces [1] S400
  shapeCasts_S400_S400x1 : S400.ShapeCasts S400x1
  broadcasts_S400x1_S400x64 : S400x1.Broadcasts S400x64
  inb_S400x64_S400x64_0_0 : ∀ a, (![0, 0] : Fin 2 → Nat) a + S400x64.size a ≤ S400x64.size a
  dot_S10000x128_S128x128_S10000x128_1_1_0_0_n_n_wf : DotDims.WF S10000x128 S128x128 S10000x128 [1] [1] [0] [0] [] []
  dot_S400x10000_S10000x128_S400x128_1_0_0_1_n_n_wf : DotDims.WF S400x10000 S10000x128 S400x128 [1] [0] [0] [1] [] []
  dot_S400x128_S64x128_S400x64_1_1_0_0_n_n_wf : DotDims.WF S400x128 S64x128 S400x64 [1] [1] [0] [0] [] []
  dot_S400x10000_S10000x64_S400x64_1_0_0_1_n_n_wf : DotDims.WF S400x10000 S10000x64 S400x64 [1] [0] [0] [1] [] []
  hrank0 : 0 < grid0.rank
  k0_off1_inb : ∀ i : grid0.Coords, ∀ (k0_h2 : k0_cond2 i = 1#1), ∀ a, (k0_off1 i) a + S400x64.size a ≤ S10000x64.size a
  k0_off1_packedbf16 : ∀ i : grid0.Coords, ∀ (k0_h2 : k0_cond2 i = 1#1), (Rect.unit (s := S10000x64) (k0_off1 i) S400x64.size (k0_off1_inb i k0_h2)).PackedRows (EltTy.packing .bf16)
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x64.size a ≤ S10000x64.size a
  hwx0_4 : ∀ i : grid0.Coords, EltTy.bits .f32 = 32 ∨ (Rect.block (s := S10000x64) S400x64.size (cc0_transform_4 i) (hinb0_4 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S64x128_S400x64_1_1_0_0_n_n : DotDims S400x128 S64x128 S400x64 where
  lhsContracting := [1]
  rhsContracting := [1]
  lhsNonContracting := [0]
  rhsNonContracting := [0]
  lhsBatch := []
  rhsBatch := []
  wf := dot_S400x128_S64x128_S400x64_1_1_0_0_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S64x128 : Shape := ⟨2, ![64, 128]⟩
abbrev S_ : Shape := ⟨0, ![]⟩
abbrev S128x64 : Shape := ⟨2, ![128, 64]⟩
abbrev S10000x64 : Shape := ⟨2, ![10000, 64]⟩
abbrev S10000 : Shape := ⟨1, ![10000]⟩
abbrev S10000x1 : Shape := ⟨2, ![10000, 1]⟩

abbrev nBuf : Space → Nat
  | .hbm => 28
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S64x128, .f32⟩
  | .hbm, ⟨4, _⟩ => ⟨S128x128, .f32⟩
  | .hbm, ⟨5, _⟩ => ⟨S10000x128, .f32⟩
  | .hbm, ⟨6, _⟩ => ⟨S10000x128, .f32⟩
  | .hbm, ⟨7, _⟩ => ⟨S_, .f32⟩
  | .hbm, ⟨8, _⟩ => ⟨S10000x128, .f32⟩
  | .hbm, ⟨9, _⟩ => ⟨S10000x128, .f32⟩
  | .hbm, ⟨10, _⟩ => ⟨S128x64, .f32⟩
  | .hbm, ⟨11, _⟩ => ⟨S10000x64, .f32⟩
  | .hbm, ⟨12, _⟩ => ⟨S10000x64, .f32⟩
  | .hbm, ⟨13, _⟩ => ⟨S_, .f32⟩
  | .hbm, ⟨14, _⟩ => ⟨S10000, .f32⟩
  | .hbm, ⟨15, _⟩ => ⟨S_, .f32⟩
  | .hbm, ⟨16, _⟩ => ⟨S10000, .f32⟩
  | .hbm, ⟨17, _⟩ => ⟨S10000, .f32⟩
  | .hbm, ⟨18, _⟩ => ⟨S10000x1, .f32⟩
  | .hbm, ⟨19, _⟩ => ⟨S10000x64, .f32⟩
  | .hbm, ⟨20, _⟩ => ⟨S10000x64, .f32⟩
  | .hbm, ⟨21, _⟩ => ⟨S10000x64, .f32⟩
  | .hbm, ⟨22, _⟩ => ⟨S_, .f32⟩
  | .hbm, ⟨23, _⟩ => ⟨S10000, .f32⟩
  | .hbm, ⟨24, _⟩ => ⟨S10000x1, .f32⟩
  | .hbm, ⟨25, _⟩ => ⟨S10000x1, .f32⟩
  | .hbm, ⟨26, _⟩ => ⟨S10000x64, .f32⟩
  | .hbm, ⟨27, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call1_cst : Ref sig .tc := ⟨.hbm, 13, rfl⟩
abbrev main_call1_v0 : Ref sig .tc := ⟨.hbm, 14, rfl⟩
abbrev main_call1_cst_0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_v6 : Ref sig .tc := ⟨.hbm, 21, rfl⟩
abbrev main_call1_cst_1 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_v7 : Ref sig .tc := ⟨.hbm, 27, rfl⟩

abbrev nD : Nat := 1
abbrev τ : Topo := Topo.v7x

variable {F : FTy → Type} [FloatOps F]

class Facts₀ : Prop where
  transposes_S128x128_S128x128_1_0 : S128x128.Transposes [1, 0] S128x128
  bcast_S_S10000x128 : S_.BroadcastsInDim S10000x128 (![] : Fin 0 → Fin S10000x128.rank)
  transposes_S64x128_S128x64_1_0 : S64x128.Transposes [1, 0] S128x64
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.LibUnitStore.lean ====
/-
  A store through the whole-shape rectangle at zero offsets, read back through the same view, is its payload,
  whatever the buffer held before; a store through any rectangle, read back, is the earlier contents with the
  rectangle's part replaced by the payload.
-/
import Idealize.ShloMosaic.Lib.Pipeline.FrameBody
import Idealize.ShloMosaic.Lib.Pipeline.Value

noncomputable section

namespace Cert.Lib

open Idealize.ShloMosaic

variable {Val : EltTy → Type} [∀ e, Nonempty (Val e)] {sig : RefSig} {κ : Kind} {sp : Space} {S : Shape} {e : EltTy}

/-- One store of `w` through the whole-shape rectangle, read back: `w`. -/
theorem read_writes_unit (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

/-- One store through any rectangle, read back: the earlier contents with the rectangle's part replaced. -/
theorem read_writes_one (v : View sig κ sp S e) (f : v.ty.Contents Val) (r : Rect S) (w : r.shape.Idx → Val e) :
    v.read Val (v.writes Val f [(⟨r, w⟩ : View.Piece Val S e)]) = r.overlay (v.read Val f) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy]
    rfl

/-- The rank-2 zero offsets, as the printed programs spell them. -/
theorem hz2 : (![0, 0] : Fin 2 → ℕ) = fun _ => 0 := by funext a; fin_cases a <;> rfl

end Cert.Lib

end
-- ==== Proof.KbRuns.lean ====
import proofs.«178336_g87050397155999_cont_sun_m_51_4_alg».proof.Proof.Gen.Kernel.Frame
import proofs.«178336_g87050397155999_cont_sun_m_51_4_alg».proof.Proof.Gen.Kernel.Skeleton
import proofs.«178336_g87050397155999_cont_sun_m_51_4_alg».proof.Proof.LibUnitStore

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which branches a grid point takes -/

/-- The first branch is taken when both grid coordinates are zero. -/
abbrev cond0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The second branch is taken in the first pass over the rows (first coordinate zero). -/
abbrev cond1 (i : grid0.Coords) : Prop := k0_cond2 i = 1#1
/-- The third branch is taken in the second pass (first coordinate one). -/
abbrev cond2 (i : grid0.Coords) : Prop := k0_cond3 i = 1#1

theorem hcond0 : ∀ t : Fin cfg0.N, cond0 (grid0.coords t) ↔ t.val = 0 :=
  (by decide +kernel : ∀ t : Fin grid0.N, cond0 (grid0.coords t) ↔ t.val = 0)
theorem hcond1 : ∀ t : Fin cfg0.N, cond1 (grid0.coords t) ↔ t.val < 25 :=
  (by decide +kernel : ∀ t : Fin grid0.N, cond1 (grid0.coords t) ↔ t.val < 25)
theorem hcond2 : ∀ t : Fin cfg0.N, cond2 (grid0.coords t) ↔ 25 ≤ t.val :=
  (by decide +kernel : ∀ t : Fin grid0.N, cond2 (grid0.coords t) ↔ 25 ≤ t.val)

/-- In the first pass point t writes rows 400·t … 400·t + 399 of the second scratch array. -/
theorem off1_row : ∀ t : Fin cfg0.N, t.val < 25 → k0_off1 (grid0.coords t) 0 = 400 * t.val :=
  (by decide +kernel : ∀ t : Fin grid0.N, t.val < 25 → k0_off1 (grid0.coords t) 0 = 400 * t.val)
theorem off1_col : ∀ t : Fin cfg0.N, k0_off1 (grid0.coords t) 1 = 0 :=
  (by decide +kernel : ∀ t : Fin grid0.N, k0_off1 (grid0.coords t) 1 = 0)

/-! ## Where the windows are live, and where the output is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The output window is idle exactly in the first pass, -/
theorem idle4 : ∀ t : Fin cfg0.N, cfg0.idle 4 (grid0.coords t) = decide (t.val < 25) :=
  (by decide +kernel : ∀ t : Fin grid0.N, cfg0.idle 4 (grid0.coords t) = decide (t.val < 25))
/-- and written back exactly at the points of the second pass. -/
theorem flush4 : ∀ t : Fin cfg0.N, (cfg0.win 4).flush t = decide (25 ≤ t.val) :=
  (by decide +kernel : ∀ t : Fin grid0.N, win0_4.flush t = decide (25 ≤ t.val))

/-! ## The staging and scratch memrefs -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S400x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x64 .f32 := win0_4.stage (cfg0.slots t 4)
abbrev hs4 (t : Fin cfg0.N) : (ms4 t).IsWhole := hstage0_4 ((cfg0.slots t 4).cast nbuf0_4)
abbrev sc0 : Memref sig .tc .vmem S10000x128 .bf16 := Memref.whole cc0_scratch0
abbrev sc1 : Memref sig .tc .vmem S10000x64 .bf16 := Memref.whole cc0_scratch1

/-- What the launch hands the region besides the windows: the two scratch arrays at some contents and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## The body, case by case

The body has three shapes over the grid.  At the first point it computes the first layer's features X·W₁ᵀ into the first
scratch array, then, as at every point of the first pass, the block of second-layer features for the point's 400 rows of
the adjacency matrix, stored into those rows of the second scratch array.  At the points of the second pass it reads the
whole second scratch array and stores the block of the result into the output window.  Each statement below gives the
contents of every buffer after the body from the contents before. -/

/-- The rows of the second scratch array the point writes in the first pass. -/
abbrev slice (i : grid0.Coords) (h : cond1 i) : Rect S10000x64 := Rect.unit (s := S10000x64) (k0_off1 i) S400x64.size (k0_off1_inb i h)

set_option maxHeartbeats 1000000 in
/-- A later point of the first pass: the second scratch array gets the point's block of features, computed from the first scratch array as it stands. -/
theorem run_pass1 (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S400x10000 .f32) (harg4 : arg4.IsWhole) (arg5 : Memref sig .tc .vmem S64x128 .f32) (harg5 : arg5.IsWhole) (arg6 : Memref sig .tc .vmem S400x64 .f32) (harg6 : arg6.IsWhole) (arg7 : Memref sig .tc .vmem S10000x128 .bf16) (harg7 : arg7.IsWhole) (arg8 : Memref sig .tc .vmem S10000x64 .bf16) (harg8 : arg8.IsWhole) (hc0 : ¬cond0 i) (hc1 : cond1 i) (hc2 : ¬cond2 i)
    (x0 : Vec F S10000x128 .f32) (x1 : Vec F S128x128 .f32) (x2 : Vec F S400x10000 .f32) (x3 : Vec F S64x128 .f32) (y6 : Vec F S400x64 .f32) (xs0 : Vec F S10000x128 .bf16) (xs1 : Vec F S10000x64 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y6 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y6 ∗ owns (c : Thread nD τ) arg7 fullShare xs0 ∗ owns (c : Thread nD τ) arg8 fullShare ((slice i hc1).overlay xs1 (k0_pay3 x2 xs0 x3))) -∗ K ⟨⟩))
          ⊢ wp frame (wpE (defs₀ (F := F)) Variants.none c none) E (cc0__fused_kernel i arg2 harg2 arg3 harg3 arg4 harg4 arg5 harg5 arg6 harg6 arg7 harg7 arg8 harg8) K := by
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      exact hf4
    isplitl [HS0]
    · iexists _; isplitr; swap; · iexact HS0
      ipureintro
      exact harg7.read_unread _
    iexists _; isplitr; swap; · iexact HS1
    ipureintro
    rw [Cert.Lib.read_writes_one, harg8.read_unread]
    simp only [View.readAt_eq_ld, harg4.read_unread, harg7.read_unread, harg5.read_unread, View.ld_unit_zero (S := S400x10000) Cert.Lib.hz2, View.ld_unit_zero (S := S10000x128) Cert.Lib.hz2, View.ld_unit_zero (S := S64x128) Cert.Lib.hz2]

set_option maxHeartbeats 1000000 in
/-- A point of the second pass: the output window gets the point's block of the result, computed from the second scratch array as it stands. -/
theorem run_pass2 (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S400x10000 .f32) (harg4 : arg4.IsWhole) (arg5 : Memref sig .tc .vmem S64x128 .f32) (harg5 : arg5.IsWhole) (arg6 : Memref sig .tc .vmem S400x64 .f32) (harg6 : arg6.IsWhole) (arg7 : Memref sig .tc .vmem S10000x128 .bf16) (harg7 : arg7.IsWhole) (arg8 : Memref sig .tc .vmem S10000x64 .bf16) (harg8 : arg8.IsWhole) (hc0 : ¬cond0 i) (hc1 : ¬cond1 i) (hc2 : cond2 i)
    (x0 : Vec F S10000x128 .f32) (x1 : Vec F S128x128 .f32) (x2 : Vec F S400x10000 .f32) (x3 : Vec F S64x128 .f32) (y6 : Vec F S400x64 .f32) (xs0 : Vec F S10000x128 .bf16) (xs1 : Vec F S10000x64 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y6 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay4 x2 xs1) ∗ owns (c : Thread nD τ) arg7 fullShare xs0 ∗ owns (c : Thread nD τ) arg8 fullShare xs1) -∗ K ⟨⟩))
          ⊢ wp frame (wpE (defs₀ (F := F)) Variants.none c none) E (cc0__fused_kernel i arg2 harg2 arg3 harg3 arg4 harg4 arg5 harg5 arg6 harg6 arg7 harg7 arg8 harg8) K := by
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [Cert.Lib.read_writes_unit _ _ Cert.Lib.hz2]
      simp only [View.readAt_eq_ld, harg4.read_unread, harg8.read_unread, View.ld_unit_zero (S := S400x10000) Cert.Lib.hz2, View.ld_unit_zero (S := S10000x64) Cert.Lib.hz2]
    isplitl [HS0]
    · iexists _; isplitr; swap; · iexact HS0
      ipureintro
      exact harg7.read_unread _
    iexists _; isplitr; swap; · iexact HS1
    ipureintro
    exact harg8.read_unread _

set_option maxHeartbeats 1000000 in
/-- The first point: the first scratch array gets X·W₁ᵀ, and the second the first block of features computed from it. -/
theorem run_first (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S400x10000 .f32) (harg4 : arg4.IsWhole) (arg5 : Memref sig .tc .vmem S64x128 .f32) (harg5 : arg5.IsWhole) (arg6 : Memref sig .tc .vmem S400x64 .f32) (harg6 : arg6.IsWhole) (arg7 : Memref sig .tc .vmem S10000x128 .bf16) (harg7 : arg7.IsWhole) (arg8 : Memref sig .tc .vmem S10000x64 .bf16) (harg8 : arg8.IsWhole) (hc0 : cond0 i) (hc1 : cond1 i) (hc2 : ¬cond2 i)
    (x0 : Vec F S10000x128 .f32) (x1 : Vec F S128x128 .f32) (x2 : Vec F S400x10000 .f32) (x3 : Vec F S64x128 .f32) (y6 : Vec F S400x64 .f32) (xs0 : Vec F S10000x128 .bf16) (xs1 : Vec F S10000x64 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y6 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y6 ∗ owns (c : Thread nD τ) arg7 fullShare (k0_pay1 x0 x1) ∗ owns (c : Thread nD τ) arg8 fullShare ((slice i hc1).overlay xs1 (k0_pay3 x2 (k0_pay1 x0 x1) x3))) -∗ K ⟨⟩))
          ⊢ wp frame (wpE (defs₀ (F := F)) Variants.none c none) E (cc0__fused_kernel i arg2 harg2 arg3 harg3 arg4 harg4 arg5 harg5 arg6 harg6 arg7 harg7 arg8 harg8) K := by
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      exact hf4
    isplitl [HS0]
    · iexists _; isplitr; swap; · iexact HS0
      ipureintro
      sl_unfold_words
      rw [Cert.Lib.read_writes_unit _ _ Cert.Lib.hz2]
      simp only [View.readAt_eq_ld, harg2.read_unread, harg3.read_unread, harg4.read_unread, harg5.read_unread, harg7.read_unread, harg8.read_unread, View.ld_unit_zero (S := S400x10000) Cert.Lib.hz2, View.ld_unit_zero (S := S10000x128) Cert.Lib.hz2, View.ld_unit_zero (S := S64x128) Cert.Lib.hz2, View.ld_unit_zero (S := S128x128) Cert.Lib.hz2, View.ld_unit_zero (S := S10000x64) Cert.Lib.hz2]
    iexists _; isplitr; swap; · iexact HS1
    ipureintro
    rw [Cert.Lib.read_writes_one, harg8.read_unread]
    refine congrArg ((slice i hc1).overlay xs1) ?_
    sl_unfold_words
    rw [View.readCov_unit_zero (S := S10000x128) arg7.view Cert.Lib.hz2]
    simp only [View.readAt_eq_ld, harg2.read_unread, harg3.read_unread, harg4.read_unread, harg5.read_unread, harg7.read_unread, harg8.read_unread, View.ld_unit_zero (S := S400x10000) Cert.Lib.hz2, View.ld_unit_zero (S := S10000x128) Cert.Lib.hz2, View.ld_unit_zero (S := S64x128) Cert.Lib.hz2, View.ld_unit_zero (S := S128x128) Cert.Lib.hz2, View.ld_unit_zero (S := S10000x64) Cert.Lib.hz2]

end Cert.Kernel.Body

end
-- ==== Proof.KbBody.lean ====
import proofs.«178336_g87050397155999_cont_sun_m_51_4_alg».proof.Proof.KbRuns
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two scratch arrays hold, point by point

The first scratch array holds, from the first point on, the first layer's features as that point computed them from the
blocks of X and W₁ it was handed.  The second scratch array is filled 400 rows at a time during the first pass: after
point n its rows below 400·(n+1) hold the second layer's features — row r as the point r / 400 computed it from its block
of the adjacency matrix — and its other rows hold whatever they held.  From the last point of the first pass on, every
row is written. -/

theorem N_eq : cfg0.N = 50 := N_0

/-- The first grid point. -/
def t₀ : Fin cfg0.N := ⟨0, by rw [N_eq]; omega⟩

/-- The blocks the body is handed at point t, at their vector types. -/
def blkX (c : Dev nD) (t : Fin cfg0.N) : Vec F S10000x128 .f32 := iblk m c 0 t
def blkW1 (c : Dev nD) (t : Fin cfg0.N) : Vec F S128x128 .f32 := iblk m c 1 t
def blkA (c : Dev nD) (t : Fin cfg0.N) : Vec F S400x10000 .f32 := iblk m c 2 t
def blkW2 (c : Dev nD) (t : Fin cfg0.N) : Vec F S64x128 .f32 := iblk m c 3 t

/-- The first layer's features, as the first point computes them. -/
def feats1 (c : Dev nD) : Vec F S10000x128 .bf16 := k0_pay1 (blkX m c t₀) (blkW1 m c t₀)

/-- The point of the first pass that writes row r of the second scratch array, -/
def ptOfRow (j : S10000x64.Idx) : Fin cfg0.N := ⟨(j 0).val / 400, by rw [N_eq]; have := idx2_lt0 j; omega⟩
/-- and the row's place inside that point's block. -/
def inBlock (j : S10000x64.Idx) : S400x64.Idx := ix2 ⟨(j 0).val % 400, Nat.mod_lt _ (by norm_num)⟩ ⟨(j 1).val, idx2_lt1 j⟩

/-- The second layer's features, row by row as the points of the first pass compute them. -/
def feats2 (c : Dev nD) : Vec F S10000x64 .bf16 :=
  fun j => k0_pay3 (blkA m c (ptOfRow j)) (feats1 m c) (blkW2 m c (ptOfRow j)) (inBlock j)

/-- After point n the rows below 400·(n+1) of the second scratch array are the second layer's features. -/
def FilledTo (c : Dev nD) (n : ℕ) (d : Vec F S10000x64 .bf16) : Prop :=
  ∀ j : S10000x64.Idx, (j 0).val < 400 * (n + 1) → d j = feats2 m c j

theorem filledTo_feats2 (c : Dev nD) (n : ℕ) : FilledTo m c n (feats2 m c) := fun _ _ => rfl

/-- Once 25 blocks are written the array is the features, whole. -/
theorem FilledTo.eq_feats2 {c : Dev nD} {n : ℕ} {d : Vec F S10000x64 .bf16} (h : FilledTo m c n d) (hn : 24 ≤ n) : d = feats2 m c :=
  funext fun j => h j (by have := idx2_lt0 j; omega)

/-- One more block: the rows a point of the first pass writes, over contents filled up to the point before. -/
theorem FilledTo.step {c : Dev nD} (t : Fin cfg0.N) (ht : t.val < 25) (hc1 : cond1 (grid0.coords t)) {d : Vec F S10000x64 .bf16}
    (h : t.val ≠ 0 → FilledTo m c (t.val - 1) d) :
    FilledTo m c t.val ((slice (grid0.coords t) hc1).overlay d (k0_pay3 (blkA m c t) (feats1 m c) (blkW2 m c t))) := by
  intro j hj
  have h0 := off1_row t ht
  have h1 := off1_col t
  by_cases hmem : j ∈ (slice (grid0.coords t) hc1).set
  · obtain ⟨x, rfl⟩ : ∃ x, (slice (grid0.coords t) hc1).emb x = j := (slice (grid0.coords t) hc1).exists_idx_of_mem hmem
    rw [Rect.overlay_emb]
    have hx0 : (x 0).val < 400 := idx2_lt0 x
    have e0 : (((slice (grid0.coords t) hc1).emb x) 0).val = 400 * t.val + (x 0).val := by
      rw [Rect.emb_apply]; simp only [Rect.off_unit, Rect.stride_unit, Nat.one_mul]; rw [h0]
    have e1 : (((slice (grid0.coords t) hc1).emb x) 1).val = (x 1).val := by
      rw [Rect.emb_apply]; simp only [Rect.off_unit, Rect.stride_unit, Nat.one_mul]; rw [h1, Nat.zero_add]
    have hp : ptOfRow ((slice (grid0.coords t) hc1).emb x) = t := Fin.ext (by
      show (((slice (grid0.coords t) hc1).emb x) 0).val / 400 = t.val
      rw [e0]; omega)
    have hb : inBlock ((slice (grid0.coords t) hc1).emb x) = x := by
      refine funext fun a => ?_
      match a with
      | ⟨0, _⟩ => exact Fin.ext (by show (((slice (grid0.coords t) hc1).emb x) 0).val % 400 = (x 0).val; rw [e0]; omega)
      | ⟨1, _⟩ => exact Fin.ext (by show (((slice (grid0.coords t) hc1).emb x) 1).val = (x 1).val; exact e1)
    unfold feats2
    rw [hp, hb]
  · rw [Rect.overlay_of_not_mem _ _ _ hmem]
    have hlt : (j 0).val < 400 * t.val := by
      by_contra hge
      apply hmem
      rw [Rect.mem_set_unit]
      intro a
      match a with
      | ⟨0, _⟩ =>
        show k0_off1 (grid0.coords t) 0 ≤ (j 0).val ∧ (j 0).val < k0_off1 (grid0.coords t) 0 + 400
        rw [h0]; omega
      | ⟨1, _⟩ =>
        show k0_off1 (grid0.coords t) 1 ≤ (j 1).val ∧ (j 1).val < k0_off1 (grid0.coords t) 1 + 64
        rw [h1]; have := idx2_lt1 j; omega
    have htz : t.val ≠ 0 := by intro e; rw [e] at hlt; omega
    exact h htz j (by have : t.val - 1 + 1 = t.val := by omega
                      rw [this]; exact hlt)

/-! ## The invariant between points and the proof data -/

/-- Before point 0 the two scratch arrays hold anything; after point n the first holds the first layer's features and the
    second is filled up to the rows of point n. -/
def Phi (c : Dev nD) : (n : ℕ) → n ≤ cfg0.N → sProp 𝕄
  | 0, _ => Pipeline.ΦA spec0 c
  | n + 1, _ => iprop(iprop(owns (c : Thread nD τ) sc0 fullShare (feats1 m c) ∗ (∃ d, ⌜FilledTo m c n d⌝ ∗ owns (c : Thread nD τ) sc1 fullShare d)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop(owns (c : Thread nD τ) sc0 fullShare (feats1 m c) ∗ (∃ d, ⌜FilledTo m c n d⌝ ∗ owns (c : Thread nD τ) sc1 fullShare d)) ∗ (∃ r, prngReg c r)) := rfl

theorem Phi_pos (c : Dev nD) (n : ℕ) (h : n ≤ cfg0.N) (hz : n ≠ 0) :
    Phi m c n h = iprop(iprop(owns (c : Thread nD τ) sc0 fullShare (feats1 m c) ∗ (∃ d, ⌜FilledTo m c (n - 1) d⌝ ∗ owns (c : Thread nD τ) sc1 fullShare d)) ∗ (∃ r, prngReg c r)) := by
  cases n with
  | zero => exact absurd rfl hz
  | succ n => rfl

/-- The proof data of the one pipeline on core c: the arrays as launched; every input's buffer left at its block; the
    output's buffer, at a point of the second pass, at the block of the result computed from the point's rows of the
    adjacency matrix and the second layer's features. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (blkA m c t) (feats2 m c)
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = k0_pay4 (blkA m c t) (feats2 m c) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
/-- In the first pass the output's buffer is handed back as it was found; -/
theorem leaves4_pass1 (c : Dev nD) (t : Fin cfg0.N) (h : t.val < 25) :
    (dats m 0 c).leavesExact 4 t = iprop(∃ d, owns (c : Thread nD τ) (ms4 t) fullShare ((dats m 0 c).before 4 t d)) :=
  (dats m 0 c).leavesExact_idle 4 t (by rw [idle4 t]; exact decide_eq_true h) (by rw [flush4 t]; exact decide_eq_false (by omega))
/-- in the second pass it is left at the point's block of the result. -/
theorem leaves4_pass2 (c : Dev nD) (t : Fin cfg0.N) (h : 25 ≤ t.val) :
    (dats m 0 c).leavesExact 4 t = owns (c : Thread nD τ) (ms4 t) fullShare (k0_pay4 (blkA m c t) (feats2 m c)) := by
  unfold Dat.leavesExact; rw [idle4 t, decide_eq_false (by omega), after4]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: by the point's position in the grid one of the three cases applies; the invariant supplies
    the scratch arrays' contents and takes them back one block further. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = Phi m c (t.val + 1) t.isLt from rfl, Phi_succ]
  rw [leaves0, leaves1, leaves2, leaves3]
  have hN : t.val < 50 := lt_of_lt_of_eq t.isLt N_eq
  by_cases h1 : t.val < 25
  · rw [leaves4_pass1 m c t h1]
    by_cases hz : t.val = 0
    · -- the first point
      rw [Phi_castSucc m c t, Phi_zero m c _ _ hz, PhiA_eq]
      obtain rfl : t = t₀ := Fin.ext hz
      iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩⟩
      iapply (run_first c (grid0.coords t₀) (ms0 t₀) (hs0 t₀) (ms1 t₀) (hs1 t₀) (ms2 t₀) (hs2 t₀) (ms3 t₀) (hs3 t₀) (ms4 t₀) (hs4 t₀) sc0 (Memref.isWhole_whole _) sc1 (Memref.isWhole_whole _)
        ((hcond0 t₀).mpr hz) ((hcond1 t₀).mpr h1) (fun h => absurd ((hcond2 t₀).mp h) (by omega))
        (blkX m c t₀) (blkW1 m c t₀) (blkA m c t₀) (blkW2 m c t₀) ((dats m 0 c).before 4 t₀ d4) e0 e1 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]
          · iexact HS0
          iexists _; isplitr
          swap; · iexact HS1
          ipureintro
          exact FilledTo.step m (c := c) t₀ h1 ((hcond1 t₀).mpr h1) (d := e1) (fun h => absurd hz h)
        iexact Hg
      isplitl [Ho]; · iexact Ho
      isplitl [H0]; · iexact H0
      isplitl [H1]; · iexact H1
      isplitl [H2]; · iexact H2
      isplitl [H3]; · iexact H3
      iexists _; iexact H4
    · -- a later point of the first pass
      rw [Phi_castSucc m c t, Phi_pos m c _ _ hz]
      iintro ⟨⟨⟨HS0, ⟨%e1, %hfill, HS1⟩⟩, Hg⟩, Ho, ⟨%d0, H0⟩, ⟨%d1, H1⟩, ⟨%d2, H2⟩, ⟨%d3, H3⟩, ⟨%d4, H4⟩⟩
      iapply (run_pass1 c (grid0.coords t) (ms0 t) (hs0 t) (ms1 t) (hs1 t) (ms2 t) (hs2 t) (ms3 t) (hs3 t) (ms4 t) (hs4 t) sc0 (Memref.isWhole_whole _) sc1 (Memref.isWhole_whole _)
        (fun h => hz ((hcond0 t).mp h)) ((hcond1 t).mpr h1) (fun h => absurd ((hcond2 t).mp h) (by omega))
        (blkX m c t) (blkW1 m c t) (blkA m c t) (blkW2 m c t) ((dats m 0 c).before 4 t d4) (feats1 m c) e1 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]
          · iexact HS0
          iexists _; isplitr
          swap; · iexact HS1
          ipureintro
          exact FilledTo.step m (c := c) t h1 ((hcond1 t).mpr h1) (fun _ => hfill)
        iexact Hg
      isplitl [Ho]; · iexact Ho
      isplitl [H0]; · iexact H0
      isplitl [H1]; · iexact H1
      isplitl [H2]; · iexact H2
      isplitl [H3]; · iexact H3
      iexists _; iexact H4
  · -- a point of the second pass
    have h2 : 25 ≤ t.val := by omega
    have hz : t.val ≠ 0 := by omega
    rw [leaves4_pass2 m c t h2]
    rw [Phi_castSucc m c t, Phi_pos m c _ _ hz]
    iintro ⟨⟨⟨HS0, ⟨%e1, %hfill, HS1⟩⟩, Hg⟩, Ho, ⟨%d0, H0⟩, ⟨%d1, H1⟩, ⟨%d2, H2⟩, ⟨%d3, H3⟩, ⟨%d4, H4⟩⟩
    obtain rfl : e1 = feats2 m c := hfill.eq_feats2 m (by omega)
    iapply (run_pass2 c (grid0.coords t) (ms0 t) (hs0 t) (ms1 t) (hs1 t) (ms2 t) (hs2 t) (ms3 t) (hs3 t) (ms4 t) (hs4 t) sc0 (Memref.isWhole_whole _) sc1 (Memref.isWhole_whole _)
      (fun h => hz ((hcond0 t).mp h)) (fun h => h1 ((hcond1 t).mp h)) ((hcond2 t).mpr h2)
      (blkX m c t) (blkW1 m c t) (blkA m c t) (blkW2 m c t) ((dats m 0 c).before 4 t d4) (feats1 m c) (feats2 m c) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexact HS0
        iexists _; isplitr
        swap; · iexact HS1
        ipureintro
        exact filledTo_feats2 m c _
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the scratch arrays' contents are forgotten again. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last, N_eq]; omega), PhiA_eq]
  iintro ⟨⟨HS0, ⟨%d, %hd, HS1⟩⟩, Hg⟩
  isplitl [HS0 HS1]
  · isplitl [HS0]
    · iexists _; iexact HS0
    iexists _; iexact HS1
  iexact Hg

/-! ## The run and the frame -/

/-- Every weakly fair execution of the program terminates; afterwards every array of the pipeline holds what the write-backs
    of the proof data leave in it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KiRuns.lean ====
import proofs.«178336_g87050397155999_cont_sun_m_51_4_alg».proof.Proof.Gen.KernelIdeal.Frame
import proofs.«178336_g87050397155999_cont_sun_m_51_4_alg».proof.Proof.Gen.KernelIdeal.Skeleton
import proofs.«178336_g87050397155999_cont_sun_m_51_4_alg».proof.Proof.LibUnitStore

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which branches a grid point takes -/

/-- The first branch is taken when both grid coordinates are zero. -/
abbrev cond0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The second branch is taken in the first pass over the rows (first coordinate zero). -/
abbrev cond1 (i : grid0.Coords) : Prop := k0_cond2 i = 1#1
/-- The third branch is taken in the second pass (first coordinate one). -/
abbrev cond2 (i : grid0.Coords) : Prop := k0_cond3 i = 1#1

theorem hcond0 : ∀ t : Fin cfg0.N, cond0 (grid0.coords t) ↔ t.val = 0 :=
  (by decide +kernel : ∀ t : Fin grid0.N, cond0 (grid0.coords t) ↔ t.val = 0)
theorem hcond1 : ∀ t : Fin cfg0.N, cond1 (grid0.coords t) ↔ t.val < 25 :=
  (by decide +kernel : ∀ t : Fin grid0.N, cond1 (grid0.coords t) ↔ t.val < 25)
theorem hcond2 : ∀ t : Fin cfg0.N, cond2 (grid0.coords t) ↔ 25 ≤ t.val :=
  (by decide +kernel : ∀ t : Fin grid0.N, cond2 (grid0.coords t) ↔ 25 ≤ t.val)

/-- In the first pass point t writes rows 400·t … 400·t + 399 of the second scratch array. -/
theorem off1_row : ∀ t : Fin cfg0.N, t.val < 25 → k0_off1 (grid0.coords t) 0 = 400 * t.val :=
  (by decide +kernel : ∀ t : Fin grid0.N, t.val < 25 → k0_off1 (grid0.coords t) 0 = 400 * t.val)
theorem off1_col : ∀ t : Fin cfg0.N, k0_off1 (grid0.coords t) 1 = 0 :=
  (by decide +kernel : ∀ t : Fin grid0.N, k0_off1 (grid0.coords t) 1 = 0)

/-! ## Where the windows are live, and where the output is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The output window is idle exactly in the first pass, -/
theorem idle4 : ∀ t : Fin cfg0.N, cfg0.idle 4 (grid0.coords t) = decide (t.val < 25) :=
  (by decide +kernel : ∀ t : Fin grid0.N, cfg0.idle 4 (grid0.coords t) = decide (t.val < 25))
/-- and written back exactly at the points of the second pass. -/
theorem flush4 : ∀ t : Fin cfg0.N, (cfg0.win 4).flush t = decide (25 ≤ t.val) :=
  (by decide +kernel : ∀ t : Fin grid0.N, win0_4.flush t = decide (25 ≤ t.val))

/-! ## The staging and scratch memrefs -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S400x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x64 .f32 := win0_4.stage (cfg0.slots t 4)
abbrev hs4 (t : Fin cfg0.N) : (ms4 t).IsWhole := hstage0_4 ((cfg0.slots t 4).cast nbuf0_4)
abbrev sc0 : Memref sig .tc .vmem S10000x128 .bf16 := Memref.whole cc0_scratch0
abbrev sc1 : Memref sig .tc .vmem S10000x64 .bf16 := Memref.whole cc0_scratch1

/-- What the launch hands the region besides the windows: the two scratch arrays at some contents and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## The body, case by case

The body has three shapes over the grid.  At the first point it computes the first layer's features X·W₁ᵀ into the first
scratch array, then, as at every point of the first pass, the block of second-layer features for the point's 400 rows of
the adjacency matrix, stored into those rows of the second scratch array.  At the points of the second pass it reads the
whole second scratch array and stores the block of the result into the output window.  Each statement below gives the
contents of every buffer after the body from the contents before. -/

/-- The rows of the second scratch array the point writes in the first pass. -/
abbrev slice (i : grid0.Coords) (h : cond1 i) : Rect S10000x64 := Rect.unit (s := S10000x64) (k0_off1 i) S400x64.size (k0_off1_inb i h)

set_option maxHeartbeats 1000000 in
/-- A later point of the first pass: the second scratch array gets the point's block of features, computed from the first scratch array as it stands. -/
theorem run_pass1 (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S400x10000 .f32) (harg4 : arg4.IsWhole) (arg5 : Memref sig .tc .vmem S64x128 .f32) (harg5 : arg5.IsWhole) (arg6 : Memref sig .tc .vmem S400x64 .f32) (harg6 : arg6.IsWhole) (arg7 : Memref sig .tc .vmem S10000x128 .bf16) (harg7 : arg7.IsWhole) (arg8 : Memref sig .tc .vmem S10000x64 .bf16) (harg8 : arg8.IsWhole) (hc0 : ¬cond0 i) (hc1 : cond1 i) (hc2 : ¬cond2 i)
    (x0 : Vec F S10000x128 .f32) (x1 : Vec F S128x128 .f32) (x2 : Vec F S400x10000 .f32) (x3 : Vec F S64x128 .f32) (y6 : Vec F S400x64 .f32) (xs0 : Vec F S10000x128 .bf16) (xs1 : Vec F S10000x64 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y6 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y6 ∗ owns (c : Thread nD τ) arg7 fullShare xs0 ∗ owns (c : Thread nD τ) arg8 fullShare ((slice i hc1).overlay xs1 (k0_pay3 x2 xs0 x3))) -∗ K ⟨⟩))
          ⊢ wp frame (wpE (defs₀ (F := F)) Variants.none c none) E (cc0__fused_kernel i arg2 harg2 arg3 harg3 arg4 harg4 arg5 harg5 arg6 harg6 arg7 harg7 arg8 harg8) K := by
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      exact hf4
    isplitl [HS0]
    · iexists _; isplitr; swap; · iexact HS0
      ipureintro
      exact harg7.read_unread _
    iexists _; isplitr; swap; · iexact HS1
    ipureintro
    rw [Cert.Lib.read_writes_one, harg8.read_unread]
    simp only [View.readAt_eq_ld, harg4.read_unread, harg7.read_unread, harg5.read_unread, View.ld_unit_zero (S := S400x10000) Cert.Lib.hz2, View.ld_unit_zero (S := S10000x128) Cert.Lib.hz2, View.ld_unit_zero (S := S64x128) Cert.Lib.hz2]

set_option maxHeartbeats 1000000 in
/-- A point of the second pass: the output window gets the point's block of the result, computed from the second scratch array as it stands. -/
theorem run_pass2 (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S400x10000 .f32) (harg4 : arg4.IsWhole) (arg5 : Memref sig .tc .vmem S64x128 .f32) (harg5 : arg5.IsWhole) (arg6 : Memref sig .tc .vmem S400x64 .f32) (harg6 : arg6.IsWhole) (arg7 : Memref sig .tc .vmem S10000x128 .bf16) (harg7 : arg7.IsWhole) (arg8 : Memref sig .tc .vmem S10000x64 .bf16) (harg8 : arg8.IsWhole) (hc0 : ¬cond0 i) (hc1 : ¬cond1 i) (hc2 : cond2 i)
    (x0 : Vec F S10000x128 .f32) (x1 : Vec F S128x128 .f32) (x2 : Vec F S400x10000 .f32) (x3 : Vec F S64x128 .f32) (y6 : Vec F S400x64 .f32) (xs0 : Vec F S10000x128 .bf16) (xs1 : Vec F S10000x64 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y6 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay4 x2 xs1) ∗ owns (c : Thread nD τ) arg7 fullShare xs0 ∗ owns (c : Thread nD τ) arg8 fullShare xs1) -∗ K ⟨⟩))
          ⊢ wp frame (wpE (defs₀ (F := F)) Variants.none c none) E (cc0__fused_kernel i arg2 harg2 arg3 harg3 arg4 harg4 arg5 harg5 arg6 harg6 arg7 harg7 arg8 harg8) K := by
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [Cert.Lib.read_writes_unit _ _ Cert.Lib.hz2]
      simp only [View.readAt_eq_ld, harg4.read_unread, harg8.read_unread, View.ld_unit_zero (S := S400x10000) Cert.Lib.hz2, View.ld_unit_zero (S := S10000x64) Cert.Lib.hz2]
    isplitl [HS0]
    · iexists _; isplitr; swap; · iexact HS0
      ipureintro
      exact harg7.read_unread _
    iexists _; isplitr; swap; · iexact HS1
    ipureintro
    exact harg8.read_unread _

set_option maxHeartbeats 1000000 in
/-- The first point: the first scratch array gets X·W₁ᵀ, and the second the first block of features computed from it. -/
theorem run_first (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S400x10000 .f32) (harg4 : arg4.IsWhole) (arg5 : Memref sig .tc .vmem S64x128 .f32) (harg5 : arg5.IsWhole) (arg6 : Memref sig .tc .vmem S400x64 .f32) (harg6 : arg6.IsWhole) (arg7 : Memref sig .tc .vmem S10000x128 .bf16) (harg7 : arg7.IsWhole) (arg8 : Memref sig .tc .vmem S10000x64 .bf16) (harg8 : arg8.IsWhole) (hc0 : cond0 i) (hc1 : cond1 i) (hc2 : ¬cond2 i)
    (x0 : Vec F S10000x128 .f32) (x1 : Vec F S128x128 .f32) (x2 : Vec F S400x10000 .f32) (x3 : Vec F S64x128 .f32) (y6 : Vec F S400x64 .f32) (xs0 : Vec F S10000x128 .bf16) (xs1 : Vec F S10000x64 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y6 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y6 ∗ owns (c : Thread nD τ) arg7 fullShare (k0_pay1 x0 x1) ∗ owns (c : Thread nD τ) arg8 fullShare ((slice i hc1).overlay xs1 (k0_pay3 x2 (k0_pay1 x0 x1) x3))) -∗ K ⟨⟩))
          ⊢ wp frame (wpE (defs₀ (F := F)) Variants.none c none) E (cc0__fused_kernel i arg2 harg2 arg3 harg3 arg4 harg4 arg5 harg5 arg6 harg6 arg7 harg7 arg8 harg8) K := by
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      exact hf4
    isplitl [HS0]
    · iexists _; isplitr; swap; · iexact HS0
      ipureintro
      sl_unfold_words
      rw [Cert.Lib.read_writes_unit _ _ Cert.Lib.hz2]
      simp only [View.readAt_eq_ld, harg2.read_unread, harg3.read_unread, harg4.read_unread, harg5.read_unread, harg7.read_unread, harg8.read_unread, View.ld_unit_zero (S := S400x10000) Cert.Lib.hz2, View.ld_unit_zero (S := S10000x128) Cert.Lib.hz2, View.ld_unit_zero (S := S64x128) Cert.Lib.hz2, View.ld_unit_zero (S := S128x128) Cert.Lib.hz2, View.ld_unit_zero (S := S10000x64) Cert.Lib.hz2]
    iexists _; isplitr; swap; · iexact HS1
    ipureintro
    rw [Cert.Lib.read_writes_one, harg8.read_unread]
    refine congrArg ((slice i hc1).overlay xs1) ?_
    sl_unfold_words
    rw [View.readCov_unit_zero (S := S10000x128) arg7.view Cert.Lib.hz2]
    simp only [View.readAt_eq_ld, harg2.read_unread, harg3.read_unread, harg4.read_unread, harg5.read_unread, harg7.read_unread, harg8.read_unread, View.ld_unit_zero (S := S400x10000) Cert.Lib.hz2, View.ld_unit_zero (S := S10000x128) Cert.Lib.hz2, View.ld_unit_zero (S := S64x128) Cert.Lib.hz2, View.ld_unit_zero (S := S128x128) Cert.Lib.hz2, View.ld_unit_zero (S := S10000x64) Cert.Lib.hz2]

end Cert.KernelIdeal.Body

end
-- ==== Proof.KiBody.lean ====
import proofs.«178336_g87050397155999_cont_sun_m_51_4_alg».proof.Proof.KiRuns
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two scratch arrays hold, point by point

The first scratch array holds, from the first point on, the first layer's features as that point computed them from the
blocks of X and W₁ it was handed.  The second scratch array is filled 400 rows at a time during the first pass: after
point n its rows below 400·(n+1) hold the second layer's features — row r as the point r / 400 computed it from its block
of the adjacency matrix — and its other rows hold whatever they held.  From the last point of the first pass on, every
row is written. -/

theorem N_eq : cfg0.N = 50 := N_0

/-- The first grid point. -/
def t₀ : Fin cfg0.N := ⟨0, by rw [N_eq]; omega⟩

/-- The blocks the body is handed at point t, at their vector types. -/
def blkX (c : Dev nD) (t : Fin cfg0.N) : Vec F S10000x128 .f32 := iblk m c 0 t
def blkW1 (c : Dev nD) (t : Fin cfg0.N) : Vec F S128x128 .f32 := iblk m c 1 t
def blkA (c : Dev nD) (t : Fin cfg0.N) : Vec F S400x10000 .f32 := iblk m c 2 t
def blkW2 (c : Dev nD) (t : Fin cfg0.N) : Vec F S64x128 .f32 := iblk m c 3 t

/-- The first layer's features, as the first point computes them. -/
def feats1 (c : Dev nD) : Vec F S10000x128 .bf16 := k0_pay1 (blkX m c t₀) (blkW1 m c t₀)

/-- The point of the first pass that writes row r of the second scratch array, -/
def ptOfRow (j : S10000x64.Idx) : Fin cfg0.N := ⟨(j 0).val / 400, by rw [N_eq]; have := idx2_lt0 j; omega⟩
/-- and the row's place inside that point's block. -/
def inBlock (j : S10000x64.Idx) : S400x64.Idx := ix2 ⟨(j 0).val % 400, Nat.mod_lt _ (by norm_num)⟩ ⟨(j 1).val, idx2_lt1 j⟩

/-- The second layer's features, row by row as the points of the first pass compute them. -/
def feats2 (c : Dev nD) : Vec F S10000x64 .bf16 :=
  fun j => k0_pay3 (blkA m c (ptOfRow j)) (feats1 m c) (blkW2 m c (ptOfRow j)) (inBlock j)

/-- After point n the rows below 400·(n+1) of the second scratch array are the second layer's features. -/
def FilledTo (c : Dev nD) (n : ℕ) (d : Vec F S10000x64 .bf16) : Prop :=
  ∀ j : S10000x64.Idx, (j 0).val < 400 * (n + 1) → d j = feats2 m c j

theorem filledTo_feats2 (c : Dev nD) (n : ℕ) : FilledTo m c n (feats2 m c) := fun _ _ => rfl

/-- Once 25 blocks are written the array is the features, whole. -/
theorem FilledTo.eq_feats2 {c : Dev nD} {n : ℕ} {d : Vec F S10000x64 .bf16} (h : FilledTo m c n d) (hn : 24 ≤ n) : d = feats2 m c :=
  funext fun j => h j (by have := idx2_lt0 j; omega)

/-- One more block: the rows a point of the first pass writes, over contents filled up to the point before. -/
theorem FilledTo.step {c : Dev nD} (t : Fin cfg0.N) (ht : t.val < 25) (hc1 : cond1 (grid0.coords t)) {d : Vec F S10000x64 .bf16}
    (h : t.val ≠ 0 → FilledTo m c (t.val - 1) d) :
    FilledTo m c t.val ((slice (grid0.coords t) hc1).overlay d (k0_pay3 (blkA m c t) (feats1 m c) (blkW2 m c t))) := by
  intro j hj
  have h0 := off1_row t ht
  have h1 := off1_col t
  by_cases hmem : j ∈ (slice (grid0.coords t) hc1).set
  · obtain ⟨x, rfl⟩ : ∃ x, (slice (grid0.coords t) hc1).emb x = j := (slice (grid0.coords t) hc1).exists_idx_of_mem hmem
    rw [Rect.overlay_emb]
    have hx0 : (x 0).val < 400 := idx2_lt0 x
    have e0 : (((slice (grid0.coords t) hc1).emb x) 0).val = 400 * t.val + (x 0).val := by
      rw [Rect.emb_apply]; simp only [Rect.off_unit, Rect.stride_unit, Nat.one_mul]; rw [h0]
    have e1 : (((slice (grid0.coords t) hc1).emb x) 1).val = (x 1).val := by
      rw [Rect.emb_apply]; simp only [Rect.off_unit, Rect.stride_unit, Nat.one_mul]; rw [h1, Nat.zero_add]
    have hp : ptOfRow ((slice (grid0.coords t) hc1).emb x) = t := Fin.ext (by
      show (((slice (grid0.coords t) hc1).emb x) 0).val / 400 = t.val
      rw [e0]; omega)
    have hb : inBlock ((slice (grid0.coords t) hc1).emb x) = x := by
      refine funext fun a => ?_
      match a with
      | ⟨0, _⟩ => exact Fin.ext (by show (((slice (grid0.coords t) hc1).emb x) 0).val % 400 = (x 0).val; rw [e0]; omega)
      | ⟨1, _⟩ => exact Fin.ext (by show (((slice (grid0.coords t) hc1).emb x) 1).val = (x 1).val; exact e1)
    unfold feats2
    rw [hp, hb]
  · rw [Rect.overlay_of_not_mem _ _ _ hmem]
    have hlt : (j 0).val < 400 * t.val := by
      by_contra hge
      apply hmem
      rw [Rect.mem_set_unit]
      intro a
      match a with
      | ⟨0, _⟩ =>
        show k0_off1 (grid0.coords t) 0 ≤ (j 0).val ∧ (j 0).val < k0_off1 (grid0.coords t) 0 + 400
        rw [h0]; omega
      | ⟨1, _⟩ =>
        show k0_off1 (grid0.coords t) 1 ≤ (j 1).val ∧ (j 1).val < k0_off1 (grid0.coords t) 1 + 64
        rw [h1]; have := idx2_lt1 j; omega
    have htz : t.val ≠ 0 := by intro e; rw [e] at hlt; omega
    exact h htz j (by have : t.val - 1 + 1 = t.val := by omega
                      rw [this]; exact hlt)

/-! ## The invariant between points and the proof data -/

/-- Before point 0 the two scratch arrays hold anything; after point n the first holds the first layer's features and the
    second is filled up to the rows of point n. -/
def Phi (c : Dev nD) : (n : ℕ) → n ≤ cfg0.N → sProp 𝕄
  | 0, _ => Pipeline.ΦA spec0 c
  | n + 1, _ => iprop(iprop(owns (c : Thread nD τ) sc0 fullShare (feats1 m c) ∗ (∃ d, ⌜FilledTo m c n d⌝ ∗ owns (c : Thread nD τ) sc1 fullShare d)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop(owns (c : Thread nD τ) sc0 fullShare (feats1 m c) ∗ (∃ d, ⌜FilledTo m c n d⌝ ∗ owns (c : Thread nD τ) sc1 fullShare d)) ∗ (∃ r, prngReg c r)) := rfl

theorem Phi_pos (c : Dev nD) (n : ℕ) (h : n ≤ cfg0.N) (hz : n ≠ 0) :
    Phi m c n h = iprop(iprop(owns (c : Thread nD τ) sc0 fullShare (feats1 m c) ∗ (∃ d, ⌜FilledTo m c (n - 1) d⌝ ∗ owns (c : Thread nD τ) sc1 fullShare d)) ∗ (∃ r, prngReg c r)) := by
  cases n with
  | zero => exact absurd rfl hz
  | succ n => rfl

/-- The proof data of the one pipeline on core c: the arrays as launched; every input's buffer left at its block; the
    output's buffer, at a point of the second pass, at the block of the result computed from the point's rows of the
    adjacency matrix and the second layer's features. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (blkA m c t) (feats2 m c)
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = k0_pay4 (blkA m c t) (feats2 m c) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
/-- In the first pass the output's buffer is handed back as it was found; -/
theorem leaves4_pass1 (c : Dev nD) (t : Fin cfg0.N) (h : t.val < 25) :
    (dats m 0 c).leavesExact 4 t = iprop(∃ d, owns (c : Thread nD τ) (ms4 t) fullShare ((dats m 0 c).before 4 t d)) :=
  (dats m 0 c).leavesExact_idle 4 t (by rw [idle4 t]; exact decide_eq_true h) (by rw [flush4 t]; exact decide_eq_false (by omega))
/-- in the second pass it is left at the point's block of the result. -/
theorem leaves4_pass2 (c : Dev nD) (t : Fin cfg0.N) (h : 25 ≤ t.val) :
    (dats m 0 c).leavesExact 4 t = owns (c : Thread nD τ) (ms4 t) fullShare (k0_pay4 (blkA m c t) (feats2 m c)) := by
  unfold Dat.leavesExact; rw [idle4 t, decide_eq_false (by omega), after4]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: by the point's position in the grid one of the three cases applies; the invariant supplies
    the scratch arrays' contents and takes them back one block further. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = Phi m c (t.val + 1) t.isLt from rfl, Phi_succ]
  rw [leaves0, leaves1, leaves2, leaves3]
  have hN : t.val < 50 := lt_of_lt_of_eq t.isLt N_eq
  by_cases h1 : t.val < 25
  · rw [leaves4_pass1 m c t h1]
    by_cases hz : t.val = 0
    · -- the first point
      rw [Phi_castSucc m c t, Phi_zero m c _ _ hz, PhiA_eq]
      obtain rfl : t = t₀ := Fin.ext hz
      iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩⟩
      iapply (run_first c (grid0.coords t₀) (ms0 t₀) (hs0 t₀) (ms1 t₀) (hs1 t₀) (ms2 t₀) (hs2 t₀) (ms3 t₀) (hs3 t₀) (ms4 t₀) (hs4 t₀) sc0 (Memref.isWhole_whole _) sc1 (Memref.isWhole_whole _)
        ((hcond0 t₀).mpr hz) ((hcond1 t₀).mpr h1) (fun h => absurd ((hcond2 t₀).mp h) (by omega))
        (blkX m c t₀) (blkW1 m c t₀) (blkA m c t₀) (blkW2 m c t₀) ((dats m 0 c).before 4 t₀ d4) e0 e1 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]
          · iexact HS0
          iexists _; isplitr
          swap; · iexact HS1
          ipureintro
          exact FilledTo.step m (c := c) t₀ h1 ((hcond1 t₀).mpr h1) (d := e1) (fun h => absurd hz h)
        iexact Hg
      isplitl [Ho]; · iexact Ho
      isplitl [H0]; · iexact H0
      isplitl [H1]; · iexact H1
      isplitl [H2]; · iexact H2
      isplitl [H3]; · iexact H3
      iexists _; iexact H4
    · -- a later point of the first pass
      rw [Phi_castSucc m c t, Phi_pos m c _ _ hz]
      iintro ⟨⟨⟨HS0, ⟨%e1, %hfill, HS1⟩⟩, Hg⟩, Ho, ⟨%d0, H0⟩, ⟨%d1, H1⟩, ⟨%d2, H2⟩, ⟨%d3, H3⟩, ⟨%d4, H4⟩⟩
      iapply (run_pass1 c (grid0.coords t) (ms0 t) (hs0 t) (ms1 t) (hs1 t) (ms2 t) (hs2 t) (ms3 t) (hs3 t) (ms4 t) (hs4 t) sc0 (Memref.isWhole_whole _) sc1 (Memref.isWhole_whole _)
        (fun h => hz ((hcond0 t).mp h)) ((hcond1 t).mpr h1) (fun h => absurd ((hcond2 t).mp h) (by omega))
        (blkX m c t) (blkW1 m c t) (blkA m c t) (blkW2 m c t) ((dats m 0 c).before 4 t d4) (feats1 m c) e1 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]
          · iexact HS0
          iexists _; isplitr
          swap; · iexact HS1
          ipureintro
          exact FilledTo.step m (c := c) t h1 ((hcond1 t).mpr h1) (fun _ => hfill)
        iexact Hg
      isplitl [Ho]; · iexact Ho
      isplitl [H0]; · iexact H0
      isplitl [H1]; · iexact H1
      isplitl [H2]; · iexact H2
      isplitl [H3]; · iexact H3
      iexists _; iexact H4
  · -- a point of the second pass
    have h2 : 25 ≤ t.val := by omega
    have hz : t.val ≠ 0 := by omega
    rw [leaves4_pass2 m c t h2]
    rw [Phi_castSucc m c t, Phi_pos m c _ _ hz]
    iintro ⟨⟨⟨HS0, ⟨%e1, %hfill, HS1⟩⟩, Hg⟩, Ho, ⟨%d0, H0⟩, ⟨%d1, H1⟩, ⟨%d2, H2⟩, ⟨%d3, H3⟩, ⟨%d4, H4⟩⟩
    obtain rfl : e1 = feats2 m c := hfill.eq_feats2 m (by omega)
    iapply (run_pass2 c (grid0.coords t) (ms0 t) (hs0 t) (ms1 t) (hs1 t) (ms2 t) (hs2 t) (ms3 t) (hs3 t) (ms4 t) (hs4 t) sc0 (Memref.isWhole_whole _) sc1 (Memref.isWhole_whole _)
      (fun h => hz ((hcond0 t).mp h)) (fun h => h1 ((hcond1 t).mp h)) ((hcond2 t).mpr h2)
      (blkX m c t) (blkW1 m c t) (blkA m c t) (blkW2 m c t) ((dats m 0 c).before 4 t d4) (feats1 m c) (feats2 m c) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexact HS0
        iexists _; isplitr
        swap; · iexact HS1
        ipureintro
        exact filledTo_feats2 m c _
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the scratch arrays' contents are forgotten again. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last, N_eq]; omega), PhiA_eq]
  iintro ⟨⟨HS0, ⟨%d, %hd, HS1⟩⟩, Hg⟩
  isplitl [HS0 HS1]
  · isplitl [HS0]
    · iexists _; iexact HS0
    iexists _; iexact HS1
  iexact Hg

/-! ## The run and the frame -/

/-- Every weakly fair execution of the program terminates; afterwards every array of the pipeline holds what the write-backs
    of the proof data leave in it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.KiBlocks.lean ====
/-
  Where the blocks lie in the arrays.

  The grid has 50 points, two passes of 25.  At every point the blocks of X, W₁ and W₂ are the whole arrays.  The block
  of the adjacency matrix at point t is its rows 400·(t mod 25) … 400·(t mod 25) + 399.  The output's block at a point t
  of the second pass is rows 400·(t − 25) … 400·(t − 25) + 399 of the result, and those 25 blocks, which are the ones
  written back, cover the result.
-/
import proofs.«178336_g87050397155999_cont_sun_m_51_4_alg».proof.Proof.KiBody
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Body
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]

variable (m : (ℓ : Loc nD τ sig) → Buf (Elt F) ℓ)

/-! ## The index maps over the grid -/

/-- The block indices, decided point by point: X, W₁ and W₂ stay at block (0, 0); the adjacency matrix moves down its
    rows with the point's place in its pass; the output, in the second pass, moves down its rows likewise. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_3.index t (0 : Fin 2) = 0 ∧ win0_3.index t (1 : Fin 2) = 0
    ∧ win0_2.index t (0 : Fin 2) = t.val % 25 ∧ win0_2.index t (1 : Fin 2) = 0
    ∧ (25 ≤ t.val → win0_4.index t (0 : Fin 2) = t.val - 25) ∧ win0_4.index t (1 : Fin 2) = 0 :=
  (by decide +kernel : ∀ t : Fin grid0.N, _)

/-! ## The input blocks, read off the arrays -/

/-- The block of X is X. -/
theorem blkX_eq (c : Dev nD) (t : Fin cfg0.N) : blkX m c t = (V m c main_arg0 : S10000x128.Idx → Elt F .f32) := by
  obtain ⟨e0, e1, -⟩ := idx_facts t
  funext j
  show V m c main_arg0 (((cfg0.win 0).blk t).view.emb j) = V m c main_arg0 j
  refine congrArg (V m c main_arg0) (funext fun a => Fin.ext ?_)
  match a with
  | ⟨0, _⟩ => show win0_0.index t (0 : Fin 2) * 10000 + 1 * (j 0).val = (j 0).val; omega
  | ⟨1, _⟩ => show win0_0.index t (1 : Fin 2) * 128 + 1 * (j 1).val = (j 1).val; omega

/-- The block of W₁ is W₁. -/
theorem blkW1_eq (c : Dev nD) (t : Fin cfg0.N) : blkW1 m c t = (V m c main_arg2 : S128x128.Idx → Elt F .f32) := by
  obtain ⟨-, -, e0, e1, -⟩ := idx_facts t
  funext j
  show V m c main_arg2 (((cfg0.win 1).blk t).view.emb j) = V m c main_arg2 j
  refine congrArg (V m c main_arg2) (funext fun a => Fin.ext ?_)
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- The block of W₂ is W₂. -/
theorem blkW2_eq (c : Dev nD) (t : Fin cfg0.N) : blkW2 m c t = (V m c main_arg3 : S64x128.Idx → Elt F .f32) := by
  obtain ⟨-, -, -, -, e0, e1, -⟩ := idx_facts t
  funext j
  show V m c main_arg3 (((cfg0.win 3).blk t).view.emb j) = V m c main_arg3 j
  refine congrArg (V m c main_arg3) (funext fun a => Fin.ext ?_)
  match a with
  | ⟨0, _⟩ => show win0_3.index t (0 : Fin 2) * 64 + 1 * (j 0).val = (j 0).val; omega
  | ⟨1, _⟩ => show win0_3.index t (1 : Fin 2) * 128 + 1 * (j 1).val = (j 1).val; omega

/-- Row r of the block of the adjacency matrix at point t is row 400·(t mod 25) + r of the matrix. -/
theorem blkA_apply (c : Dev nD) (t : Fin cfg0.N) (r : Fin 400) (l : Fin 10000) :
    blkA m c t (ix2 r l)
      = (V m c main_arg1 : S10000x10000.Idx → Elt F .f32) (ix2 ⟨400 * (t.val % 25) + r.val, by have := r.isLt; omega⟩ l) := by
  obtain ⟨-, -, -, -, -, -, e0, e1, -⟩ := idx_facts t
  show V m c main_arg1 (((cfg0.win 2).blk t).view.emb (ix2 r l)) = V m c main_arg1 _
  refine congrArg (V m c main_arg1) (funext fun a => Fin.ext ?_)
  match a with
  | ⟨0, _⟩ => show win0_2.index t (0 : Fin 2) * 400 + 1 * r.val = 400 * (t.val % 25) + r.val; omega
  | ⟨1, _⟩ => show win0_2.index t (1 : Fin 2) * 10000 + 1 * l.val = l.val; omega

/-! ## The output's blocks -/

/-- An index of the result lies in the output's block at point t iff each coordinate lies in the block's range. -/
theorem mem_blk4 (t : Fin cfg0.N) (i : S10000x64.Idx) :
    i ∈ ((cfg0.win 4).blk t).view.set
      ↔ ∀ a : Fin 2, win0_4.index t a * S400x64.size a ≤ (i a).val ∧ (i a).val < win0_4.index t a * S400x64.size a + S400x64.size a := by
  show i ∈ ((View.whole main_v0).slice (win0_4.rect t)).set ↔ _
  rw [View.set_slice_whole, Rect.mem_set_unit]
  exact Iff.rfl

/-- At a point t of the second pass the block is rows 400·(t − 25) … 400·(t − 25) + 399. -/
theorem mem_blk4_rows (t : Fin cfg0.N) (ht : 25 ≤ t.val) (i : S10000x64.Idx) :
    i ∈ ((cfg0.win 4).blk t).view.set ↔ 400 * (t.val - 25) ≤ (i 0).val ∧ (i 0).val < 400 * (t.val - 25) + 400 := by
  obtain ⟨-, -, -, -, -, -, -, -, e0, e1⟩ := idx_facts t
  have e0' := e0 ht
  have hi1 : (i 1).val < 64 := idx2_lt1 i
  rw [mem_blk4]
  constructor
  · intro h
    have b0 : win0_4.index t (0 : Fin 2) * 400 ≤ (i 0).val ∧ (i 0).val < win0_4.index t (0 : Fin 2) * 400 + 400 := h 0
    omega
  · intro h a
    match a with
    | ⟨0, _⟩ => show win0_4.index t (0 : Fin 2) * 400 ≤ (i 0).val ∧ (i 0).val < win0_4.index t (0 : Fin 2) * 400 + 400; omega
    | ⟨1, _⟩ => show win0_4.index t (1 : Fin 2) * 64 ≤ (i 1).val ∧ (i 1).val < win0_4.index t (1 : Fin 2) * 64 + 64; omega

/-- The point of the second pass whose block holds row r of the result. -/
def ptOfOut (i : S10000x64.Idx) : Fin cfg0.N := ⟨25 + (i 0).val / 400, by rw [N_eq]; have := idx2_lt0 i; omega⟩

theorem ptOfOut_val (i : S10000x64.Idx) : (ptOfOut i).val = 25 + (i 0).val / 400 := rfl

/-- Every index of the result lies in the block of a point that writes its block back. -/
theorem cover4 (i : S10000x64.Idx) :
    ∃ t : Fin cfg0.N, (cfg0.win 4).flush t = true ∧ i ∈ ((cfg0.win 4).blk t).view.set := by
  refine ⟨ptOfOut i, ?_, ?_⟩
  · rw [flush4]; exact decide_eq_true (by rw [ptOfOut_val]; omega)
  · rw [mem_blk4_rows (ptOfOut i) (by rw [ptOfOut_val]; omega), ptOfOut_val]
    omega

/-- A point of the second pass whose block holds the index is that point. -/
theorem eq_ptOfOut (t : Fin cfg0.N) (ht : 25 ≤ t.val) (i : S10000x64.Idx) (hi : i ∈ ((cfg0.win 4).blk t).view.set) :
    t = ptOfOut i := by
  rw [mem_blk4_rows t ht] at hi
  exact Fin.ext (by rw [ptOfOut_val]; omega)

/-- Place y of the block at a point t of the second pass is place (400·(t − 25) + y₀, y₁) of the result. -/
theorem emb_blk4 (t : Fin cfg0.N) (ht : 25 ≤ t.val) (y : S400x64.Idx) :
    ((cfg0.win 4).blk t).view.emb y
      = (ix2 ⟨400 * (t.val - 25) + (y 0).val, by have := idx2_lt0 y; have := lt_of_lt_of_eq t.isLt N_eq; omega⟩
          ⟨(y 1).val, idx2_lt1 y⟩ : S10000x64.Idx) := by
  obtain ⟨-, -, -, -, -, -, -, -, e0, e1⟩ := idx_facts t
  have e0' := e0 ht
  refine funext fun a => Fin.ext ?_
  match a with
  | ⟨0, _⟩ => show win0_4.index t (0 : Fin 2) * 400 + 1 * (y 0).val = 400 * (t.val - 25) + (y 0).val; omega
  | ⟨1, _⟩ => show win0_4.index t (1 : Fin 2) * 64 + 1 * (y 1).val = (y 1).val; omega

end Cert.KernelIdeal.Blocks

end
-- ==== Proof.LibRows.lean ====
/-
  Row-wise operations on matrices of extended reals, read at an index.

  A matrix times a matrix (the sum over the shared index), a matrix plus a row vector on every row, that sum floored at a
  constant, the maximum of a row from a starting value, and the row-wise log-softmax: each entry minus its row's maximum,
  minus the logarithm of the sum over the row of the exponentials of the entries minus the maximum.
-/
import Idealize.ShloMosaic.PureOps.Ideal.Laws
import Idealize.ShloMosaic.Lib.ValueIdx

set_option maxRecDepth 16384

noncomputable section

open scoped BigOperators

namespace Cert.Rows

open Idealize.ShloMosaic Idealize.ShloMosaic.ValueIdx

/-- The product of two matrices at an index: the sum over k of x(i₀, k) · w(k, i₁). -/
def rowsTimes {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A row vector added on every row. -/
def plusRow {M K : Nat} (a : (⟨2, ![M, K]⟩ : Shape).Idx → EReal) (b : (⟨1, ![K]⟩ : Shape).Idx → EReal) :
    (⟨2, ![M, K]⟩ : Shape).Idx → EReal :=
  fun i => a i + b (ix1 (i 1))

/-- A row vector added on every row, the sum floored at `z`. -/
def flooredPlusRow {M K : Nat} (z : EReal) (a : (⟨2, ![M, K]⟩ : Shape).Idx → EReal) (b : (⟨1, ![K]⟩ : Shape).Idx → EReal) :
    (⟨2, ![M, K]⟩ : Shape).Idx → EReal :=
  fun i => max (a i + b (ix1 (i 1))) z

/-- The maximum of row p, from the starting value `s`. -/
def rowTop {M K : Nat} (s : EReal) (z : (⟨2, ![M, K]⟩ : Shape).Idx → EReal) (p : Fin M) : EReal :=
  (Finset.univ : Finset (Fin K)).fold max s (fun k => z (ix2 p k))

/-- The row-wise log-softmax, the rows' maxima taken from `s`. -/
def logSoftmaxRows {M K : Nat} (s : EReal) (z : (⟨2, ![M, K]⟩ : Shape).Idx → EReal) : (⟨2, ![M, K]⟩ : Shape).Idx → EReal :=
  fun i => (z i - rowTop s z (i 0)) - Ideal.log (∑ k : Fin K, Ideal.exp (z (ix2 (i 0) k) - rowTop s z (i 0)))

/-- A maximum taken from `s` is at least `s`, so taking it against `s` once more changes nothing. -/
theorem max_rowTop {M K : Nat} (s : EReal) (z : (⟨2, ![M, K]⟩ : Shape).Idx → EReal) (p : Fin M) :
    max s (rowTop s z p) = rowTop s z p :=
  max_eq_right ((Finset.le_fold_max s).2 (Or.inl le_rfl))

/-- The log-softmax at an index depends only on the entry there and on the entries of its row. -/
theorem logSoftmaxRows_congr {M M' K : Nat} (s : EReal) (z : (⟨2, ![M, K]⟩ : Shape).Idx → EReal) (z' : (⟨2, ![M', K]⟩ : Shape).Idx → EReal)
    (i : (⟨2, ![M, K]⟩ : Shape).Idx) (i' : (⟨2, ![M', K]⟩ : Shape).Idx) (hi : z i = z' i')
    (h : ∀ k : Fin K, z (ix2 (i 0) k) = z' (ix2 (i' 0) k)) : logSoftmaxRows s z i = logSoftmaxRows s z' i' := by
  have ht : rowTop s z (i 0) = rowTop s z' (i' 0) := by
    unfold rowTop
    exact congrArg (fun f => Finset.fold max s f (Finset.univ : Finset (Fin K))) (funext h)
  unfold logSoftmaxRows
  rw [hi, ht]
  exact congrArg (fun f : Fin K → EReal => z' i' - rowTop s z' (i' 0) - Ideal.log (∑ k : Fin K, Ideal.exp (f k - rowTop s z' (i' 0)))) (funext h)

end Cert.Rows

end
-- ==== Proof.Spec.lean ====
/-
  The function both programs compute, on matrices of extended reals.

  Two rounds of neighbourhood aggregation over a dense adjacency matrix A (n × n), then a row-wise log-softmax:
    H₀ = X · W₁ᵀ,   H₁ = A · H₀,   H₂ = max(H₁, z) · W₂ᵀ,   O = A · H₂,   result = logsoftmax over each row of O,
  where z is the floor of the rectifier and s the value the row maxima start from.  A product with a transposed right
  factor is the sum over k of x(i, k) · w(j, k); a plain product the sum over k of a(i, k) · h(k, j).
-/
import proofs.«178336_g87050397155999_cont_sun_m_51_4_alg».proof.Proof.LibRows

set_option maxRecDepth 16384

noncomputable section

open scoped BigOperators

namespace Cert.Gcn

open Idealize.ShloMosaic Idealize.ShloMosaic.ValueIdx Cert.Rows

/-- A matrix times the transpose of another: the sum over k of x(i₀, k) · w(i₁, k). -/
def timesT {M K N : Nat} (x : (⟨2, ![M, K]⟩ : Shape).Idx → EReal) (w : (⟨2, ![N, K]⟩ : Shape).Idx → EReal) :
    (⟨2, ![M, N]⟩ : Shape).Idx → EReal :=
  fun i => ∑ k : Fin K, x (ix2 (i 0) k) * w (ix2 (i 1) k)

/-- Every entry floored at `z` (the rectifier, for z = 0). -/
def flooredAt {M K : Nat} (z : EReal) (a : (⟨2, ![M, K]⟩ : Shape).Idx → EReal) : (⟨2, ![M, K]⟩ : Shape).Idx → EReal :=
  fun i => max (a i) z

/-- The first layer's features before aggregation: X · W₁ᵀ. -/
def feat0 {n a h : Nat} (x : (⟨2, ![n, a]⟩ : Shape).Idx → EReal) (w1 : (⟨2, ![h, a]⟩ : Shape).Idx → EReal) :
    (⟨2, ![n, h]⟩ : Shape).Idx → EReal :=
  timesT x w1

/-- The second layer's features before aggregation: max(A · (X · W₁ᵀ), z) · W₂ᵀ. -/
def feat2 {n a h o : Nat} (z : EReal) (x : (⟨2, ![n, a]⟩ : Shape).Idx → EReal) (adj : (⟨2, ![n, n]⟩ : Shape).Idx → EReal)
    (w1 : (⟨2, ![h, a]⟩ : Shape).Idx → EReal) (w2 : (⟨2, ![o, h]⟩ : Shape).Idx → EReal) : (⟨2, ![n, o]⟩ : Shape).Idx → EReal :=
  timesT (flooredAt z (rowsTimes adj (feat0 x w1))) w2

/-- The whole function: the row-wise log-softmax of A · H₂. -/
def layers {n a h o : Nat} (z s : EReal) (x : (⟨2, ![n, a]⟩ : Shape).Idx → EReal) (adj : (⟨2, ![n, n]⟩ : Shape).Idx → EReal)
    (w1 : (⟨2, ![h, a]⟩ : Shape).Idx → EReal) (w2 : (⟨2, ![o, h]⟩ : Shape).Idx → EReal) : (⟨2, ![n, o]⟩ : Shape).Idx → EReal :=
  logSoftmaxRows s (rowsTimes adj (feat2 z x adj w1 w2))

end Cert.Gcn

end
-- ==== Proof.LibDotNT.lean ====
/-
  The dimension numbers of a matrix product with the right operand transposed — both operands contracted on their last axis,
  no batch axes — read at an index. At result position (i, q) and contraction position k the left operand is read at (i, k) and the
  right at (q, k); the contraction shape has one axis of the shared extent, so the sum over it is the ordinary sum over k of
  l(i, k) · r(q, k): a row of the left against a row of the right. A matrix unit product of that form, at the ideal instance, reads as
  its accumulator plus that sum, whatever the extents.
-/
import Idealize.ShloMosaic.PureOps.Ideal.Laws
import Idealize.ShloMosaic.Lib.ValueIdx

noncomputable section

open scoped BigOperators

namespace Idealize.ShloMosaic.DotNT

open Idealize.ShloMosaic Idealize.ShloMosaic.ValueIdx

variable {M K N : Nat} (d : DotDims ⟨2, ![M, K]⟩ ⟨2, ![N, K]⟩ ⟨2, ![M, N]⟩)

/-- The dimension numbers: [1] × [1] contracted, [0] and [0] kept, no batch axes. -/
structure IsNT : Prop where
  lc : d.lhsContracting = [1]
  rc : d.rhsContracting = [1]
  ln : d.lhsNonContracting = [0]
  rn : d.rhsNonContracting = [0]
  lb : d.lhsBatch = []
  rb : d.rhsBatch = []

variable {d}

theorem rank_one (h : IsNT d) : d.contr.rank = 1 := by rw [d.rank_contr, h.lc]; rfl

theorem size_zero (h : IsNT d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsNT d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsNT d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsNT d) (j : (⟨2, ![M, N]⟩ : Shape).Idx) (k : d.contr.Idx) :
    (d.lhsIdx j k 1).val = (pos h k).val := by
  rw [d.lhsIdx_val_of_single h.lc j k]; rfl

theorem rhsIdx_row (h : IsNT d) (j : (⟨2, ![M, N]⟩ : Shape).Idx) (k : d.contr.Idx) :
    (d.rhsIdx j k 0).val = (j 1).val := by
  have hb : (0 : Fin 2) ∉ d.rhsBatch := by rw [h.rb]; exact List.not_mem_nil
  have hn : (0 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem rhsIdx_col (h : IsNT d) (j : (⟨2, ![M, N]⟩ : Shape).Idx) (k : d.contr.Idx) :
    (d.rhsIdx j k 1).val = (pos h k).val := by
  rw [d.rhsIdx_val_of_single h.rc j k]; rfl

theorem lhsIdx_eq (h : IsNT d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsNT d) (j : (⟨2, ![M, N]⟩ : Shape).Idx) (k : d.contr.Idx) :
    d.rhsIdx j k = ix2 (j 1) (pos h k) := by
  funext a; apply Fin.ext
  match a with
  | ⟨0, _⟩ => exact rhsIdx_row h j k
  | ⟨1, _⟩ => exact rhsIdx_col h j k

/-- THE CONTRACTION SUM: the sum over k below the shared extent of l(i, k) · r(q, k). -/
theorem sum_eq (h : IsNT d) (l : (⟨2, ![M, K]⟩ : Shape).Idx → EReal) (r : (⟨2, ![N, K]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 (j 1) k) := by
  rw [← Equiv.sum_comp (pos h) (fun k : Fin K => l (ix2 (j 0) k) * r (ix2 (j 1) k))]
  exact Finset.sum_congr rfl fun k _ => by rw [lhsIdx_eq h j k, rhsIdx_eq h j k]; rfl

/-- A matrix unit product of that form into any accumulator, at the ideal instance and at an index. -/
theorem matmul_apply (h : IsNT d) (prec : Option ContractPrecision) {φ₁ φ₂ : FTy}
    (l : FVec Ideal ⟨2, ![M, K]⟩ φ₁) (r : FVec Ideal ⟨2, ![N, K]⟩ φ₂) (acc : FVec Ideal ⟨2, ![M, N]⟩ .f32) (j : (⟨2, ![M, N]⟩ : Shape).Idx) :
    matmul d prec l r acc j = acc j + ∑ k : Fin K, l (ix2 (j 0) k) * r (ix2 (j 1) k) :=
  (Ideal.matmul_apply d prec l r acc j).trans (congrArg (acc j + ·) (sum_eq h l r j))

/-- Into a zero accumulator: just the sum. -/
theorem matmul_zero_apply (h : IsNT d) (prec : Option ContractPrecision) {φ₁ φ₂ : FTy}
    (l : FVec Ideal ⟨2, ![M, K]⟩ φ₁) (r : FVec Ideal ⟨2, ![N, K]⟩ φ₂) (j : (⟨2, ![M, N]⟩ : Shape).Idx) :
    matmul d prec l r (constant (F := Ideal) ⟨2, ![M, N]⟩ .f32 0x00000000#32) j = ∑ k : Fin K, l (ix2 (j 0) k) * r (ix2 (j 1) k) :=
  (Ideal.matmul_constant_zero_apply d prec l r j).trans (sum_eq h l r j)

end Idealize.ShloMosaic.DotNT

end
-- ==== Proof.LibDotPlain.lean ====
/-
  The dimension numbers of a plain matrix product — the left operand contracted on its last axis, the right on its
  first, no batch axes — read at an index. At result position (i, q) and contraction position k the left operand is
  read at (i, k) and the right at (k, q); the contraction shape has one axis of the shared extent, so the sum over it
  is the ordinary sum over k of l(i, k) · r(k, q). Both a tiled matrix unit product into a zero accumulator and a host
  dot product then read, at the ideal instance, as that sum, whatever the extents.
-/
import Idealize.ShloMosaic.PureOps.Ideal.Laws
import Idealize.ShloMosaic.Lib.ValueIdx

noncomputable section

open scoped BigOperators

namespace Idealize.ShloMosaic.DotPlain

open Idealize.ShloMosaic Idealize.ShloMosaic.ValueIdx

variable {M K N : Nat} (d : DotDims ⟨2, ![M, K]⟩ ⟨2, ![K, N]⟩ ⟨2, ![M, N]⟩)

/-- The dimension numbers are those of a plain product: [1] × [0] contracted, [0] and [1] kept, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

theorem rank_one (h : IsPlain d) : d.contr.rank = 1 := by rw [d.rank_contr, h.lc]; rfl

theorem size_zero (h : IsPlain d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsPlain d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsPlain d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsPlain d) (j : (⟨2, ![M, N]⟩ : Shape).Idx) (k : d.contr.Idx) :
    (d.lhsIdx j k 1).val = (pos h k).val := by
  rw [d.lhsIdx_val_of_single h.lc j k]; rfl

theorem rhsIdx_row (h : IsPlain d) (j : (⟨2, ![M, N]⟩ : Shape).Idx) (k : d.contr.Idx) :
    (d.rhsIdx j k 0).val = (pos h k).val := by
  rw [d.rhsIdx_val_of_single h.rc j k]; rfl

theorem rhsIdx_col (h : IsPlain d) (j : (⟨2, ![M, N]⟩ : Shape).Idx) (k : d.contr.Idx) :
    (d.rhsIdx j k 1).val = (j 1).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem lhsIdx_eq (h : IsPlain d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsPlain d) (j : (⟨2, ![M, N]⟩ : Shape).Idx) (k : d.contr.Idx) :
    d.rhsIdx j k = ix2 (pos h k) (j 1) := by
  funext a; apply Fin.ext
  match a with
  | ⟨0, _⟩ => exact rhsIdx_row h j k
  | ⟨1, _⟩ => exact rhsIdx_col h j k

/-- THE CONTRACTION SUM of a plain product is the sum over k below the shared extent of l(i, k) · r(k, q). -/
theorem sum_eq (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (pos h) (fun k : Fin K => l (ix2 (j 0) k) * r (ix2 k (j 1)))]
  exact Finset.sum_congr rfl fun k _ => by rw [lhsIdx_eq h j k, rhsIdx_eq h j k]; rfl

/-- A matrix unit product into a zero accumulator, at the ideal instance and at an index. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = ∑ k : Fin K, l (ix2 (j 0) k) * r (ix2 k (j 1)) :=
  (Ideal.matmul_constant_zero_apply d prec l r j).trans (sum_eq h l r j)

/-- A host dot product, at the ideal instance and at an index. -/
theorem dotGeneral_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    Host.dotGeneral d prec l r j = ∑ k : Fin K, l (ix2 (j 0) k) * r (ix2 k (j 1)) := by
  unfold Host.dotGeneral
  exact (Ideal.dotGeneral_apply d prec _ l r j).trans (sum_eq h l r j)

end Idealize.ShloMosaic.DotPlain

end
-- ==== Proof.LibRowReduce.lean ====
/-
  A matrix reduced along its rows and the result put back beside every entry, read at an index.

  A kernel that normalises the rows of an [a, b] matrix (a softmax, a layer norm over the last axis) reduces it over
  axis 1 to a vector [a], casts the vector to a column [a, 1] and broadcasts the column to [a, b]. At the ideal
  instance and at position (i, c): the broadcast column reads the column at (i, 0), the column reads the vector at i,
  and the vector at i is the sum, or the maximum from the accumulator's value, over k of the matrix at (i, k) — the
  reduced index i with k put back on the dropped axis is (i, k).
-/
import Idealize.ShloMosaic.PureOps.Ideal.Laws
import Idealize.ShloMosaic.Lib.Pipeline.Value
import Idealize.ShloMosaic.Lib.ValueIdx

noncomputable section

open scoped BigOperators

namespace Idealize.ShloMosaic.RowReduce

open Idealize.ShloMosaic Idealize.ShloMosaic.ValueIdx

variable {α : Type}

/-- An [a] vector cast to an [a, 1] column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (i, c), the column at (i, 0). -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- The reduced index i with k put back on the dropped axis 1 is (i, k). -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum over the rows' entries: at i, the sum over k of the matrix at (i, k). -/
theorem rowSum_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_row h i k))

/-- A maximum over the rows' entries: at i, the maximum from the accumulator's value over k of the matrix at (i, k). -/
theorem rowMax_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => Finset.fold max (Ideal.ofBits φ acc) f Finset.univ) (funext fun k => congrArg src (lift_row h i k)))

end Idealize.ShloMosaic.RowReduce

end
-- ==== Proof.PayloadValue.lean ====
/-
  The three values the kernel's body stores, read at an index on extended reals.

  The first is X · W₁ᵀ: a product contracting both factors on their last axis, into a zero accumulator; the roundings
  before and after it are the identity on extended reals.  The second is one block of rows of max(A · H₀, 0) · W₂ᵀ: a
  plain product of the block of A with H₀, every entry floored at zero, then a product with W₂ transposed.  The third is
  one block of rows of the row-wise log-softmax of A · H₂: a plain product, each row's maximum taken from −∞ and put back
  beside every entry of the row, the entries minus it, the logarithm of the row's sum of their exponentials, and the
  difference of the two.
-/
import proofs.«178336_g87050397155999_cont_sun_m_51_4_alg».proof.Proof.Gen.KernelIdeal.Skeleton
import proofs.«178336_g87050397155999_cont_sun_m_51_4_alg».proof.Proof.Spec
import proofs.«178336_g87050397155999_cont_sun_m_51_4_alg».proof.Proof.LibDotNT
import proofs.«178336_g87050397155999_cont_sun_m_51_4_alg».proof.Proof.LibDotPlain
import proofs.«178336_g87050397155999_cont_sun_m_51_4_alg».proof.Proof.LibRowReduce

set_option maxRecDepth 16384

noncomputable section

open scoped BigOperators

namespace Cert.Gcn.Pay

open Idealize.ShloMosaic Idealize.ShloMosaic.ValueIdx Cert.KernelIdeal Cert.KernelIdeal.Gen Cert.Rows Cert.Gcn

/-! ## The dimension numbers of the four products -/

/-- X against W₁: both contracted on their last axis. -/
theorem nt1 : DotNT.IsNT dot_S10000x128_S128x128_S10000x128_1_1_0_0_n_n := ⟨rfl, rfl, rfl, rfl, rfl, rfl⟩

/-- The floored block against W₂: both contracted on their last axis. -/
theorem nt2 : DotNT.IsNT dot_S400x128_S64x128_S400x64_1_1_0_0_n_n := ⟨rfl, rfl, rfl, rfl, rfl, rfl⟩

/-- The block of A against H₀: a plain product. -/
theorem plain1 : DotPlain.IsPlain dot_S400x10000_S10000x128_S400x128_1_0_0_1_n_n := ⟨rfl, rfl, rfl, rfl, rfl, rfl⟩

/-- The block of A against H₂: a plain product. -/
theorem plain2 : DotPlain.IsPlain dot_S400x10000_S10000x64_S400x64_1_0_0_1_n_n := ⟨rfl, rfl, rfl, rfl, rfl, rfl⟩

/-! ## The first stored value: X · W₁ᵀ -/

theorem pay1_eq (x : Vec Ideal S10000x128 .f32) (w1 : Vec Ideal S128x128 .f32) :
    k0_pay1 (F := Ideal) x w1 = feat0 x w1 := by
  funext j
  unfold k0_pay1
  rw [shapeCast_self]
  exact DotNT.matmul_zero_apply nt1 none (φ₁ := .bf16) (φ₂ := .bf16) (truncf .bf16 x bitsLt_bf16_f32)
    (truncf .bf16 w1 bitsLt_bf16_f32) j

/-! ## The second stored value: a block of rows of max(A · H₀, 0) · W₂ᵀ -/

theorem pay3_eq (a : Vec Ideal S400x10000 .f32) (h0 : Vec Ideal S10000x128 .bf16) (w2 : Vec Ideal S64x128 .f32) :
    k0_pay3 (F := Ideal) a h0 w2
      = timesT (flooredAt (Ideal.ofBits .f32 0x00000000#32) (rowsTimes a h0)) w2 := by
  funext j
  unfold k0_pay3 k0_pay2
  rw [shapeCast_self]
  refine (DotNT.matmul_zero_apply nt2 none (φ₁ := .f32) (φ₂ := .bf16) _ (truncf .bf16 w2 bitsLt_bf16_f32) j).trans ?_
  refine Finset.sum_congr rfl fun k _ => congrArg (· * w2 (ix2 (j 1) k)) ?_
  refine congrArg (fun t => max t _) ?_
  exact DotPlain.matmul_zero_apply plain1 none (φ₁ := .bf16) (φ₂ := .bf16) (truncf .bf16 a bitsLt_bf16_f32) h0 (ix2 (j 0) k)

/-! ## The third stored value: a block of rows of the row-wise log-softmax of A · H₂ -/

/-- Each row's maximum, taken from −∞, put back beside every entry of the row. -/
def topCol (z : FVec Ideal S400x64 .f32) : FVec Ideal S400x64 .f32 :=
  broadcastTo S400x64
    (shapeCast S400x1 (multiReduction (F := Ideal) .maximumf [1] S400 z 0xFF800000#32 reduces_S400x64_S400 (.inl rfl) rfl)
      shapeCasts_S400_S400x1)
    broadcasts_S400x1_S400x64

/-- At (p, q) it is the maximum of row p: the broadcast column read at (p, 0), the column the vector at p, the vector at
    p the maximum over the row. -/
theorem topCol_apply (z : FVec Ideal S400x64 .f32) (p : Fin 400) (q : Fin 64) :
    topCol z (ix2 p q) = rowTop (Ideal.ofBits .f32 0xFF800000#32) z p :=
  (RowReduce.broadcastTo_a1_ab_apply _ broadcasts_S400x1_S400x64 p q).trans
    ((RowReduce.shapeCast_a_a1_apply _ shapeCasts_S400_S400x1 p 0).trans
      (RowReduce.rowMax_apply z _ reduces_S400x64_S400 (.inl rfl) rfl p))

/-- The normalisation of a block z: z minus its rows' maxima, minus the logarithm, put back beside every entry, of each
    row's sum of the exponentials of z minus the maxima.  At (p, q) it is the log-softmax of z. -/
theorem softmaxTail_apply (z : FVec Ideal S400x64 .f32) (p : Fin 400) (q : Fin 64) :
    subf (subf z (topCol z))
        (broadcastTo S400x64
          (log (shapeCast S400x1
            (multiReduction (F := Ideal) .add [1] S400 (exp (subf z (topCol z))) 0x00000000#32 reduces_S400x64_S400 (.inl rfl) rfl)
            shapeCasts_S400_S400x1))
          broadcasts_S400x1_S400x64) (ix2 p q)
      = logSoftmaxRows (Ideal.ofBits .f32 0xFF800000#32) z (ix2 p q) := by
  refine (subf_apply _ _ _).trans ?_
  refine (congrArg (· - _) (subf_apply _ _ _)).trans ?_
  rw [topCol_apply z p q]
  refine congrArg (fun t => z (ix2 p q) - rowTop (Ideal.ofBits .f32 0xFF800000#32) z p - t) ?_
  refine (RowReduce.broadcastTo_a1_ab_apply _ broadcasts_S400x1_S400x64 p q).trans ?_
  refine congrArg Ideal.log ?_
  refine (RowReduce.shapeCast_a_a1_apply _ shapeCasts_S400_S400x1 p 0).trans ?_
  refine (RowReduce.rowSum_apply _ _ reduces_S400x64_S400 (.inl rfl) rfl p).trans ?_
  refine Finset.sum_congr rfl fun k _ => congrArg Ideal.exp ?_
  refine (subf_apply _ _ _).trans ?_
  rw [topCol_apply z p k]

theorem pay4_eq (a : Vec Ideal S400x10000 .f32) (h2 : Vec Ideal S10000x64 .bf16) :
    k0_pay4 (F := Ideal) a h2 = logSoftmaxRows (Ideal.ofBits .f32 0xFF800000#32) (rowsTimes a h2) := by
  have hz : matmul dot_S400x10000_S10000x64_S400x64_1_0_0_1_n_n none (truncf .bf16 a bitsLt_bf16_f32) h2
      (constant (F := Ideal) S400x64 .f32 0x00000000#32) = rowsTimes a h2 :=
    funext fun i => DotPlain.matmul_zero_apply plain2 none (φ₁ := .bf16) (φ₂ := .bf16) (truncf .bf16 a bitsLt_bf16_f32) h2 i
  funext j
  obtain ⟨p, q, rfl⟩ : ∃ (p : Fin 400) (q : Fin 64), j = ix2 p q := ⟨j 0, j 1, eq_ix2 j⟩
  unfold k0_pay4 k0_pay2
  refine (softmaxTail_apply _ p q).trans ?_
  rw [hz]

end Cert.Gcn.Pay

end
-- ==== Proof.BlockRows.lean ====
/-
  The specification's row-wise functions on a block of rows.

  Let a be a matrix whose row r is row ρ(r) of a matrix A with the same number of columns. A product a · h has, in
  row r, the entries of row ρ(r) of A · h, because an entry of a product reads one row of its left factor only. The
  same then holds for everything computed row by row from such a product: flooring every entry at a constant and
  multiplying by a transposed matrix, and the row-wise log-softmax, which reads an entry and the entries of its row.
  Each statement is given twice: with the same right factor on both sides, and with two right factors that agree at
  every index.
-/
import proofs.«178336_g87050397155999_cont_sun_m_51_4_alg».proof.Proof.Spec

set_option maxRecDepth 16384

noncomputable section

open scoped BigOperators

namespace Cert.Gcn

open Idealize.ShloMosaic Idealize.ShloMosaic.ValueIdx Cert.Rows

section Rows

variable {n M K : Nat} (A : (⟨2, ![n, K]⟩ : Shape).Idx → EReal) (a : (⟨2, ![M, K]⟩ : Shape).Idx → EReal)
  (ρ : Fin M → Fin n) (hrow : ∀ (r : Fin M) (l : Fin K), a (ix2 r l) = A (ix2 (ρ r) l))

include hrow

/-- Row r of a · h is row ρ(r) of A · h', for right factors that agree at every index. -/
theorem rowsTimes_rows' {N : Nat} (h h' : (⟨2, ![K, N]⟩ : Shape).Idx → EReal)
    (hh : ∀ (k : Fin K) (j : Fin N), h (ix2 k j) = h' (ix2 k j)) (r : Fin M) (j : Fin N) :
    rowsTimes a h (ix2 r j) = rowsTimes A h' (ix2 (ρ r) j) := by
  show ∑ k : Fin K, a (ix2 r k) * h (ix2 k j) = ∑ k : Fin K, A (ix2 (ρ r) k) * h' (ix2 k j)
  exact Finset.sum_congr rfl fun k _ => by rw [hrow r k, hh k j]

/-- Row r of a · h is row ρ(r) of A · h. -/
theorem rowsTimes_rows {N : Nat} (h : (⟨2, ![K, N]⟩ : Shape).Idx → EReal) (r : Fin M) (j : Fin N) :
    rowsTimes a h (ix2 r j) = rowsTimes A h (ix2 (ρ r) j) :=
  rowsTimes_rows' A a ρ hrow h h (fun _ _ => rfl) r j

/-- Row r of max(a · h₀, z) · w₂ᵀ is row ρ(r) of max(A · h₀', z) · w₂ᵀ, for h₀ and h₀' that agree at every index. -/
theorem feat2_rows' {H O : Nat} (z : EReal) (h0 h0' : (⟨2, ![K, H]⟩ : Shape).Idx → EReal)
    (hh : ∀ (k : Fin K) (j : Fin H), h0 (ix2 k j) = h0' (ix2 k j)) (w2 : (⟨2, ![O, H]⟩ : Shape).Idx → EReal)
    (r : Fin M) (j : Fin O) :
    timesT (flooredAt z (rowsTimes a h0)) w2 (ix2 r j) = timesT (flooredAt z (rowsTimes A h0')) w2 (ix2 (ρ r) j) := by
  show ∑ k : Fin H, max (rowsTimes a h0 (ix2 r k)) z * w2 (ix2 j k)
    = ∑ k : Fin H, max (rowsTimes A h0' (ix2 (ρ r) k)) z * w2 (ix2 j k)
  exact Finset.sum_congr rfl fun k _ => by rw [rowsTimes_rows' A a ρ hrow h0 h0' hh r k]

/-- Row r of max(a · h₀, z) · w₂ᵀ is row ρ(r) of max(A · h₀, z) · w₂ᵀ. -/
theorem feat2_rows {H O : Nat} (z : EReal) (h0 : (⟨2, ![K, H]⟩ : Shape).Idx → EReal)
    (w2 : (⟨2, ![O, H]⟩ : Shape).Idx → EReal) (r : Fin M) (j : Fin O) :
    timesT (flooredAt z (rowsTimes a h0)) w2 (ix2 r j) = timesT (flooredAt z (rowsTimes A h0)) w2 (ix2 (ρ r) j) :=
  feat2_rows' A a ρ hrow z h0 h0 (fun _ _ => rfl) w2 r j

/-- Row r of the log-softmax of a · h₂ is row ρ(r) of the log-softmax of A · h₂', for h₂ and h₂' that agree at every
    index: the entry and all entries of its row agree. -/
theorem logSoftmax_rows' {N : Nat} (s : EReal) (h2 h2' : (⟨2, ![K, N]⟩ : Shape).Idx → EReal)
    (hh : ∀ (k : Fin K) (j : Fin N), h2 (ix2 k j) = h2' (ix2 k j)) (r : Fin M) (j : Fin N) :
    logSoftmaxRows s (rowsTimes a h2) (ix2 r j) = logSoftmaxRows s (rowsTimes A h2') (ix2 (ρ r) j) :=
  logSoftmaxRows_congr s (rowsTimes a h2) (rowsTimes A h2') (ix2 r j) (ix2 (ρ r) j)
    (rowsTimes_rows' A a ρ hrow h2 h2' hh r j) (fun k => rowsTimes_rows' A a ρ hrow h2 h2' hh r k)

/-- Row r of the log-softmax of a · h₂ is row ρ(r) of the log-softmax of A · h₂. -/
theorem logSoftmax_rows {N : Nat} (s : EReal) (h2 : (⟨2, ![K, N]⟩ : Shape).Idx → EReal) (r : Fin M) (j : Fin N) :
    logSoftmaxRows s (rowsTimes a h2) (ix2 r j) = logSoftmaxRows s (rowsTimes A h2) (ix2 (ρ r) j) :=
  logSoftmax_rows' A a ρ hrow s h2 h2 (fun _ _ => rfl) r j

end Rows

end Cert.Gcn

end
-- ==== Proof.KiValue.lean ====
/-
  The values the kernel's body stores, as the specification's function of the whole arrays.

  The body is handed, at every grid point, the whole of X, W₁ and W₂, and a block of 400 rows of A: at point t the rows
  400·(t mod 25) + r for r below 400. Hence the first layer's features it computes are X · W₁ᵀ. The second layer's
  features are computed 400 rows at a time, row j by the point j / 400 from its block of A; that block's row j mod 400
  is row j of A, so the rows put together are max(A · H₀, 0) · W₂ᵀ. And the block a point of the second pass leaves in
  the output's buffer is its 400 rows of the row-wise log-softmax of A · H₂, that is, of the whole function.
-/
import proofs.«178336_g87050397155999_cont_sun_m_51_4_alg».proof.Proof.KiBody
import proofs.«178336_g87050397155999_cont_sun_m_51_4_alg».proof.Proof.PayloadValue
import proofs.«178336_g87050397155999_cont_sun_m_51_4_alg».proof.Proof.BlockRows
import proofs.«178336_g87050397155999_cont_sun_m_51_4_alg».proof.Proof.Spec

set_option maxRecDepth 16384

noncomputable section

open scoped BigOperators

namespace Cert.KernelIdeal.Val

open Cert.KernelIdeal Cert.KernelIdeal.Gen Cert.KernelIdeal.Body
open Idealize.ShloMosaic Idealize.ShloMosaic.ValueIdx Cert.Rows Cert.Gcn

/-- Row r of the block of A handed at point t is a row of A: 400·(t mod 25) + r is below 10000. -/
theorem row_lt (t : ℕ) (r : Fin 400) : 400 * (t % 25) + r.val < 10000 := by
  have := r.isLt
  have := Nat.mod_lt t (show 0 < 25 by norm_num)
  omega

variable (m : (ℓ : Loc nD τ sig) → Buf (Elt Ideal) ℓ) (c : Dev nD)
variable (X : S10000x128.Idx → EReal) (A : S10000x10000.Idx → EReal) (W1 : S128x128.Idx → EReal) (W2 : S64x128.Idx → EReal)

/-- The first layer's features are X · W₁ᵀ. -/
theorem feats1_eq (hX : ∀ t, blkX m c t = X) (hW1 : ∀ t, blkW1 m c t = W1) :
    feats1 m c = feat0 X W1 := by
  unfold feats1
  rw [hX, hW1]
  exact Pay.pay1_eq X W1

/-- Row j of A is row j mod 400 of the block handed at point j / 400. -/
theorem row_of_block (j : S10000x64.Idx) :
    (ix2 (⟨400 * ((ptOfRow j).val % 25) + (j 0).val % 400, row_lt _ ⟨(j 0).val % 400, Nat.mod_lt _ (by norm_num)⟩⟩ : Fin 10000)
      (⟨(j 1).val, idx2_lt1 j⟩ : Fin 64) : S10000x64.Idx) = j := by
  have hj := idx2_lt0 j
  refine funext fun a => Fin.ext ?_
  match a with
  | ⟨0, _⟩ =>
    show 400 * ((j 0).val / 400 % 25) + (j 0).val % 400 = (j 0).val
    omega
  | ⟨1, _⟩ => rfl

/-- The second layer's features, put together from the blocks, are max(A · (X · W₁ᵀ), 0) · W₂ᵀ. -/
theorem feats2_eq (hX : ∀ t, blkX m c t = X) (hW1 : ∀ t, blkW1 m c t = W1) (hW2 : ∀ t, blkW2 m c t = W2)
    (hA : ∀ (t : Fin cfg0.N) (r : Fin 400) (l : Fin 10000),
      blkA m c t (ix2 r l) = A (ix2 (⟨400 * (t.val % 25) + r.val, row_lt t.val r⟩ : Fin 10000) l)) :
    feats2 m c = feat2 (Ideal.ofBits .f32 0x00000000#32) X A W1 W2 := by
  funext j
  unfold feats2
  rw [Pay.pay3_eq, hW2, feats1_eq m c X W1 hX hW1]
  unfold inBlock
  refine (feat2_rows (n := 10000) (M := 400) (K := 10000) A (blkA m c (ptOfRow j))
    (fun r => ⟨400 * ((ptOfRow j).val % 25) + r.val, row_lt _ r⟩) (hA (ptOfRow j))
    (Ideal.ofBits .f32 0x00000000#32) (feat0 X W1) W2 _ _).trans ?_
  exact congrArg (feat2 (Ideal.ofBits .f32 0x00000000#32) X A W1 W2) (row_of_block j)

/-- The block a point leaves for the output: its 400 rows of the whole function. -/
theorem block_eq (hX : ∀ t, blkX m c t = X) (hW1 : ∀ t, blkW1 m c t = W1) (hW2 : ∀ t, blkW2 m c t = W2)
    (hA : ∀ (t : Fin cfg0.N) (r : Fin 400) (l : Fin 10000),
      blkA m c t (ix2 r l) = A (ix2 (⟨400 * (t.val % 25) + r.val, row_lt t.val r⟩ : Fin 10000) l))
    (t : Fin cfg0.N) (p : Fin 400) (q : Fin 64) :
    k0_pay4 (blkA m c t) (feats2 m c) (ix2 p q)
      = layers (Ideal.ofBits .f32 0x00000000#32) (Ideal.ofBits .f32 0xFF800000#32) X A W1 W2
          (ix2 (⟨400 * (t.val % 25) + p.val, row_lt t.val p⟩ : Fin 10000) q) := by
  rw [Pay.pay4_eq, feats2_eq m c X A W1 W2 hX hW1 hW2 hA]
  exact logSoftmax_rows (n := 10000) (M := 400) (K := 10000) A (blkA m c t)
    (fun r => ⟨400 * (t.val % 25) + r.val, row_lt _ r⟩) (hA t)
    (Ideal.ofBits .f32 0xFF800000#32) (feat2 (Ideal.ofBits .f32 0x00000000#32) X A W1 W2) p q

end Cert.KernelIdeal.Val

end
-- ==== Proof.KiFinal.lean ====
/-
  The kernel's output array, after the run, is the specification of the argument arrays.

  A point t of the second pass writes back rows 400·(t − 25) … of the result: the log-softmax of the product of its
  400 rows of the adjacency matrix with the second layer's features, which is those rows of the log-softmax of the whole
  product.  The 25 blocks written back cover the array, so it ends holding the specification whole.
-/
import proofs.«178336_g87050397155999_cont_sun_m_51_4_alg».proof.Proof.KiBody
import proofs.«178336_g87050397155999_cont_sun_m_51_4_alg».proof.Proof.KiBlocks
import proofs.«178336_g87050397155999_cont_sun_m_51_4_alg».proof.Proof.KiValue
import proofs.«178336_g87050397155999_cont_sun_m_51_4_alg».proof.Proof.Spec
import Idealize.ShloMosaic.Lib.Pipeline.Value
import Idealize.ShloMosaic.Lib.ValueIdx

set_option maxRecDepth 16384

noncomputable section

namespace Cert.KernelIdeal.Final

open Cert.KernelIdeal Cert.KernelIdeal.Gen Cert.KernelIdeal.Body
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The specification of the arrays the region finds on core c. -/
def result (c : Dev nD) : S10000x64.Idx → EReal :=
  Cert.Gcn.layers (Ideal.ofBits .f32 0x00000000#32) (Ideal.ofBits .f32 0xFF800000#32)
    (V m c main_arg0 : S10000x128.Idx → EReal) (V m c main_arg1 : S10000x10000.Idx → EReal)
    (V m c main_arg2 : S128x128.Idx → EReal) (V m c main_arg3 : S64x128.Idx → EReal)

/-- An entry of the block a point of the second pass leaves is the entry of the specification the block's place says. -/
theorem block_at (c : Dev nD) (t : Fin cfg0.N) (h25 : 25 ≤ t.val) (y : S400x64.Idx) :
    k0_pay4 (blkA m c t) (feats2 m c) y = result m c (((cfg0.win 4).blk t).view.emb y) := by
  have hN : t.val < 50 := lt_of_lt_of_eq t.isLt N_eq
  obtain ⟨p, q, rfl⟩ : ∃ (p : Fin 400) (q : Fin 64), y = ix2 p q := ⟨y 0, y 1, eq_ix2 y⟩
  rw [Blocks.emb_blk4 t h25]
  refine (Val.block_eq m c _ _ _ _ (Blocks.blkX_eq m c) (Blocks.blkW1_eq m c) (Blocks.blkW2_eq m c) (Blocks.blkA_apply m c) t p q).trans ?_
  unfold result
  refine congrArg _ (funext fun a => ?_)
  match a with
  | ⟨0, _⟩ => exact Fin.ext (by show 400 * (t.val % 25) + p.val = 400 * (t.val - 25) + p.val; omega)
  | ⟨1, _⟩ => rfl

/-- What a point of the second pass writes back is its block of the specification. -/
theorem flushed_eq (c : Dev nD) (t : Fin cfg0.N) (hf : (cfg0.win 4).flush t = true) :
    (dats m 0 c).flushed 4 t = ((cfg0.win 4).blk t).view.read (Elt Ideal) (result m c) := by
  have h25 : 25 ≤ t.val := by rw [flush4 t] at hf; exact of_decide_eq_true hf
  show (cfg0.win 4).cut (grid0.coords t) ((dats m 0 c).after 4 t) = _
  rw [after4]
  funext y
  exact block_at m c t h25 y

/-- The output array after the run. -/
theorem final (c : Dev nD) : (dats m 0 c).arrAt 4 cfg0.N = result m c :=
  (dats m 0 c).arrAt_eq_of_cover 4 (result m c) (fun t hf => flushed_eq m c t hf) Blocks.cover4

/-- Every weakly fair execution of the idealized kernel terminates with the result array at the specification of the
    argument arrays, and the argument arrays as they were. -/
theorem run : θ_run defs (onTc (τ := τ) (main (F := Ideal))) ⟨m, fun _ => 0, ρ⟩ fun r => ∀ c : Dev nD,
      r.2.mem ((c.tc : Thread nD τ).loc main_v0) = Cert.Gcn.layers (Ideal.ofBits .f32 0x00000000#32) (Ideal.ofBits .f32 0xFF800000#32)
          (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 4).trans (final m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c)))⟩)
    (run_main m ρ)

end Cert.KernelIdeal.Final

end
-- ==== Proof.LibHostRowMax.lean ====
/-
  The host's reduction of a matrix along its rows, read at an index.

  A reference that takes the maximum of each row of an [a, b] matrix reduces it over axis 1 with the maximum from an
  initial value. At the ideal instance and at row i the result is the fold of the maximum, from the initial value, over k of
  the matrix at (i, k): the reduced index i with k put back on the dropped axis is (i, k).
-/
import Idealize.ShloMosaic.PureOps.Ideal.Laws
import Idealize.ShloMosaic.Lib.ValueIdx

noncomputable section

namespace Idealize.ShloMosaic.HostRowMax

open Idealize.ShloMosaic Idealize.ShloMosaic.ValueIdx

/-- The reduced index i with k put back on the dropped axis 1 is (i, k). -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- The host's maximum over the rows' entries: at i, the fold of the maximum, from the initial value, over k of the
    matrix at (i, k). -/
theorem hostRowMax_apply {a b : ℕ} {u : Shape} (x : FVec Ideal ⟨2, ![a, b]⟩ .f32) (init : u.Idx → Ideal .f32)
    (h' : (⟨2, ![a, b]⟩ : Shape).ReducesTo [1] (⟨1, ![a]⟩ : Shape)) (h : (⟨2, ![a, b]⟩ : Shape).Reduces [1] (⟨1, ![a]⟩ : Shape))
    (hu : 0 < u.numel) (i : Fin a) :
    Host.reduce FloatOps.maximumf x init h' hu (ix1 i)
      = (Finset.univ : Finset (Fin b)).fold max (init (Shape.Idx.first hu)) (fun k => x (ix2 i k)) := by
  rw [Host.reduce_eq_fold_single FloatOps.maximumf x init h' h hu]
  exact congrArg (fun f => Finset.fold max (init (Shape.Idx.first hu)) f (Finset.univ : Finset (Fin b)))
    (funext fun k => congrArg x (lift_row h i k))

end Idealize.ShloMosaic.HostRowMax

end
-- ==== Proof.RefSpec.lean ====
/-
  The reference program computes the specification's function.

  Read one operation at a time, the reference is: the product of X with the transpose of W₁ (the transpose only
  renames the index of W₁), the product of A with that, every entry floored at zero, the product with the transpose
  of W₂, the product of A with that, and then the row-wise log-softmax. In the last part the maximum of a row is
  taken from −∞ and then once more against −∞, which changes nothing, and the sum of the exponentials starts from
  zero. Each stage is shown equal, as a function of the index, to the corresponding term of the specification.
-/
import proofs.«178336_g87050397155999_cont_sun_m_51_4_alg».proof.Proof.RefRead
import proofs.«178336_g87050397155999_cont_sun_m_51_4_alg».proof.Proof.Spec
import proofs.«178336_g87050397155999_cont_sun_m_51_4_alg».proof.Proof.LibHostRowMax

set_option maxRecDepth 16384

noncomputable section

open scoped BigOperators

namespace Cert.Gcn.Ref

open Cert.ReferenceIdeal Cert.ReferenceIdeal.Gen Cert.ReferenceIdeal.ReadP
open Idealize.ShloMosaic Idealize.ShloMosaic.ValueIdx Cert.Rows Cert.Gcn

/-- The floor of the rectifier: the word of +0. -/
abbrev zer : EReal := Ideal.ofBits .f32 0x00000000#32
/-- The value the row maxima start from: the word of −∞. -/
abbrev bot : EReal := Ideal.ofBits .f32 0xFF800000#32

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S64x128, .f32⟩ : BufTy).Contents (Elt Ideal))

/-- X · W₁ᵀ: the transposed W₁ at (k, j) is W₁ at (j, k). -/
theorem v1_eq : val_main_v1 (F := Ideal) x0 x2 = feat0 x0 x2 := by
  funext i
  rw [val_main_v1_apply]
  show _ = ∑ k : Fin 128, x0 (ix2 (i 0) k) * x2 (ix2 (i 1) k)
  refine Finset.sum_congr rfl fun k _ => ?_
  rw [val_main_v0_apply]
  have e1 : lidx_main_v1 i k = ix2 (i 0) k := funext fun a => Fin.ext (by match a with | ⟨0, _⟩ => rfl | ⟨1, _⟩ => rfl)
  have e2 : idx_main_v0 (ridx_main_v1 i k) = ix2 (i 1) k := funext fun a => Fin.ext (by match a with | ⟨0, _⟩ => rfl | ⟨1, _⟩ => rfl)
  rw [e1, e2]
  rfl

/-- A · (X · W₁ᵀ). -/
theorem v2_eq : val_main_v2 (F := Ideal) x0 x1 x2 = rowsTimes x1 (feat0 x0 x2) := by
  funext i
  rw [val_main_v2_apply, v1_eq]
  show _ = ∑ k : Fin 10000, x1 (ix2 (i 0) k) * feat0 x0 x2 (ix2 k (i 1))
  refine Finset.sum_congr rfl fun k _ => ?_
  have e1 : lidx_main_v2 i k = ix2 (i 0) k := funext fun a => Fin.ext (by match a with | ⟨0, _⟩ => rfl | ⟨1, _⟩ => rfl)
  have e2 : ridx_main_v2 i k = ix2 k (i 1) := funext fun a => Fin.ext (by match a with | ⟨0, _⟩ => rfl | ⟨1, _⟩ => rfl)
  rw [e1, e2]
  rfl

/-- The rectifier: every entry floored at zero. -/
theorem v3_eq : val_main_v3 (F := Ideal) x0 x1 x2 = flooredAt zer (rowsTimes x1 (feat0 x0 x2)) := by
  funext i
  rw [val_main_v3_apply, v2_eq, val_main_call0_v0_apply, val_main_call0_cst_apply]
  rfl

/-- max(A · (X · W₁ᵀ), 0) · W₂ᵀ. -/
theorem v5_eq : val_main_v5 (F := Ideal) x0 x1 x2 x3 = feat2 zer x0 x1 x2 x3 := by
  funext i
  rw [val_main_v5_apply, v3_eq]
  show _ = ∑ k : Fin 128, flooredAt zer (rowsTimes x1 (feat0 x0 x2)) (ix2 (i 0) k) * x3 (ix2 (i 1) k)
  refine Finset.sum_congr rfl fun k _ => ?_
  rw [val_main_v4_apply]
  have e1 : lidx_main_v5 i k = ix2 (i 0) k := funext fun a => Fin.ext (by match a with | ⟨0, _⟩ => rfl | ⟨1, _⟩ => rfl)
  have e2 : idx_main_v4 (ridx_main_v5 i k) = ix2 (i 1) k := funext fun a => Fin.ext (by match a with | ⟨0, _⟩ => rfl | ⟨1, _⟩ => rfl)
  rw [e1, e2]
  rfl

/-- A · H₂. -/
theorem v6_eq : val_main_v6 (F := Ideal) x0 x1 x2 x3 = rowsTimes x1 (feat2 zer x0 x1 x2 x3) := by
  funext i
  rw [val_main_v6_apply, v5_eq]
  show _ = ∑ k : Fin 10000, x1 (ix2 (i 0) k) * feat2 zer x0 x1 x2 x3 (ix2 k (i 1))
  refine Finset.sum_congr rfl fun k _ => ?_
  have e1 : lidx_main_v6 i k = ix2 (i 0) k := funext fun a => Fin.ext (by match a with | ⟨0, _⟩ => rfl | ⟨1, _⟩ => rfl)
  have e2 : ridx_main_v6 i k = ix2 k (i 1) := funext fun a => Fin.ext (by match a with | ⟨0, _⟩ => rfl | ⟨1, _⟩ => rfl)
  rw [e1, e2]
  rfl

/-- The row maximum spread over the row: at (p, q) it is the maximum of row p of O taken from −∞; the further maximum
    against −∞ changes nothing. -/
theorem top_eq (p : Fin 10000) (q : Fin 64) :
    val_main_call1_v4 (F := Ideal) x0 x1 x2 x3 (ix2 p q) = rowTop bot (val_main_v6 (F := Ideal) x0 x1 x2 x3) p := by
  rw [val_main_call1_v4_apply, val_main_call1_v3_apply, val_main_call1_v2_apply, val_main_call1_v1_apply,
    val_main_call1_cst_0_apply]
  have e : idx_main_call1_v3 (idx_main_call1_v4 (ix2 p q)) = ix1 p := funext fun a => Fin.ext (by match a with | ⟨0, _⟩ => rfl)
  rw [e]
  have hmax : val_main_call1_v0 (F := Ideal) x0 x1 x2 x3 (ix1 p)
      = rowTop bot (val_main_v6 (F := Ideal) x0 x1 x2 x3) p := by
    unfold val_main_call1_v0
    exact HostRowMax.hostRowMax_apply (val_main_v6 (F := Ideal) x0 x1 x2 x3) (val_main_call1_cst (F := Ideal))
      reducesTo_S10000x64_S10000_d1 (by decide) h_S_ p
  rw [hmax]
  exact max_rowTop bot _ p

/-- Each entry of O minus its row's maximum. -/
theorem shifted_eq (p : Fin 10000) (q : Fin 64) :
    val_main_call1_v5 (F := Ideal) x0 x1 x2 x3 (ix2 p q)
      = val_main_v6 (F := Ideal) x0 x1 x2 x3 (ix2 p q) - rowTop bot (val_main_v6 (F := Ideal) x0 x1 x2 x3) p := by
  rw [val_main_call1_v5_apply, top_eq]
  rfl

/-- The logarithm of the row's sum of exponentials, spread over the row; the sum starts from zero. -/
theorem logsum_eq (p : Fin 10000) (q : Fin 64) :
    val_main_call1_v10 (F := Ideal) x0 x1 x2 x3 (ix2 p q)
      = Ideal.log (∑ k : Fin 64, Ideal.exp (val_main_v6 (F := Ideal) x0 x1 x2 x3 (ix2 p k)
          - rowTop bot (val_main_v6 (F := Ideal) x0 x1 x2 x3) p)) := by
  rw [val_main_call1_v10_apply, val_main_call1_v9_apply, val_main_call1_v8_apply, val_main_call1_v7_apply,
    val_main_call1_cst_1_apply]
  rw [Ideal.hostUnary_log_def, Ideal.ofBits_def, Ideal.ofBits_zero_f32, zero_add]
  refine congrArg Ideal.log (Finset.sum_congr rfl fun k _ => ?_)
  have e : idx_main_call1_v7 (idx_main_call1_v8 (idx_main_call1_v10 (ix2 p q))) k = ix2 p k :=
    funext fun a => Fin.ext (by match a with | ⟨0, _⟩ => rfl | ⟨1, _⟩ => rfl)
  rw [e, val_main_call1_v6_apply, shifted_eq, Ideal.hostUnary_exp_def]

/-- The reference's result is the specification's function of its four arguments. -/
theorem result_eq :
    val_main_v7 (F := Ideal) x0 x1 x2 x3
      = layers (Ideal.ofBits .f32 0x00000000#32) (Ideal.ofBits .f32 0xFF800000#32) x0 x1 x2 x3 := by
  funext i
  obtain ⟨p, q, rfl⟩ : ∃ (p : Fin 10000) (q : Fin 64), i = ix2 p q := ⟨i 0, i 1, eq_ix2 i⟩
  rw [val_main_v7_apply, shifted_eq, logsum_eq, v6_eq]
  rfl

end Cert.Gcn.Ref

end
-- ==== Proof.LibRunStages.lean ====
/-
  A straight line of host operations, followed one operation at a time.

  The contents of the buffers after a line of operations is the fold of the operations' results. Instead of
  composing all the results into one term, keep a list of the references written so far, each with the contents it
  is known to hold, and extend it by one entry per operation: an operation reads its operands' contents off the
  list, writes its result reference, which is not yet on the list, and leaves every listed reference as it was.
  What a later reader needs of a buffer is then one entry of the list, and every step compares terms that are one
  operation deep.
-/
import Idealize.ShloMosaic.Lib.StableHlo.Run

namespace Idealize.ShloMosaic.RunStages

open Idealize.ShloMosaic Idealize.ShloMosaic.StableHlo

variable {τ : Topo} {sig : RefSig} {Val : EltTy → Type}

/-- A reference with the contents it is known to hold. -/
abbrev Known (sig : RefSig) (Val : EltTy → Type) : Type := (r : Ref sig .tc) × r.ty.Contents Val

/-- The valuation holds the listed contents at every listed reference; `R` lists (at least) the references. -/
def Agrees (R : List (Ref sig .tc)) (K : List (Known sig Val)) (V : Valuation τ sig Val) : Prop :=
  (∀ p ∈ K, p.1 ∈ R) ∧ ∀ p ∈ K, V (Proc.devRef .tc p.1) = p.2

/-- The contents after the line satisfy `Q`. -/
def Ends (ops : List (HloOp τ sig Val)) (V : Valuation τ sig Val) (Q : Valuation τ sig Val → Prop) : Prop :=
  Q (after ops V)

theorem ends_nil {V : Valuation τ sig Val} {Q : Valuation τ sig Val → Prop} (h : Q V) : Ends [] V Q := h

/-- One entry read off the list. -/
theorem Agrees.read {R : List (Ref sig .tc)} {K : List (Known sig Val)} {V : Valuation τ sig Val} (h : Agrees R K V)
    (r : Ref sig .tc) (v : r.ty.Contents Val) (hm : (⟨r, v⟩ : Known sig Val) ∈ K) : V (Proc.devRef .tc r) = v :=
  h.2 ⟨r, v⟩ hm

/-- The list of one reference at the contents the valuation has there. -/
theorem agrees_single (r : Ref sig .tc) (V : Valuation τ sig Val) :
    Agrees [r] [(⟨r, V (Proc.devRef .tc r)⟩ : Known sig Val)] V :=
  ⟨fun p hp => by rw [List.mem_singleton.mp hp]; exact List.mem_singleton.mpr rfl,
   fun p hp => by rw [List.mem_singleton.mp hp]⟩

/-- An operation that writes `y` only, a reference not yet listed, extends the list by `y` at its result. -/
theorem agrees_cons {R : List (Ref sig .tc)} {K : List (Known sig Val)} {V : Valuation τ sig Val}
    (op : HloOp τ sig Val) (y : Ref sig .tc) (vy : y.ty.Contents Val) (h : Agrees R K V)
    (hne : ∀ r : Ref sig .tc, r ≠ y → op.result V (Proc.devRef .tc r) = V (Proc.devRef .tc r))
    (hy : op.result V (Proc.devRef .tc y) = vy) (hk : y ∉ R) :
    Agrees (y :: R) ((⟨y, vy⟩ : Known sig Val) :: K) (op.result V) := by
  refine ⟨fun p hp => ?_, fun p hp => ?_⟩
  · rcases List.mem_cons.mp hp with rfl | hp'
    · exact List.mem_cons_self
    · exact List.mem_cons_of_mem _ (h.1 p hp')
  · rcases List.mem_cons.mp hp with rfl | hp'
    · exact hy
    · have hpy : p.1 ≠ y := fun e => hk (e ▸ h.1 p hp')
      exact (hne p.1 hpy).trans (h.2 p hp')

section Steps

variable {R : List (Ref sig .tc)} {K : List (Known sig Val)} {V : Valuation τ sig Val}
  {Q : Valuation τ sig Val → Prop} {ops : List (HloOp τ sig Val)}

/-- A step through an operation with no operand. -/
theorem ends_nullary {y : Ref sig .tc} {v : y.ty.Contents Val} {hy} (h : Agrees R K V)
    (vy : y.ty.Contents Val) (hv : v = vy) (hk : y ∉ R)
    (k : ∀ V' : Valuation τ sig Val, Agrees (y :: R) ((⟨y, vy⟩ : Known sig Val) :: K) V' → Ends ops V' Q) :
    Ends (nullary (τ := τ) y v hy :: ops) V Q :=
  k _ (agrees_cons _ y vy h (fun _ hr => nullary_result_ne y v hy V hr) ((nullary_result y v hy V).trans hv) hk)

/-- A step through an operation with one operand. -/
theorem ends_unary {x y : Ref sig .tc} {f : x.ty.Contents Val → y.ty.Contents Val} {hx hy} (h : Agrees R K V)
    {vx : x.ty.Contents Val} (vy : y.ty.Contents Val) (hmx : (⟨x, vx⟩ : Known sig Val) ∈ K) (hv : f vx = vy) (hk : y ∉ R)
    (k : ∀ V' : Valuation τ sig Val, Agrees (y :: R) ((⟨y, vy⟩ : Known sig Val) :: K) V' → Ends ops V' Q) :
    Ends (unary (τ := τ) x y f hx hy :: ops) V Q :=
  k _ (agrees_cons _ y vy h (fun _ hr => unary_result_ne x y f hx hy V hr)
    ((unary_result x y f hx hy V).trans (by rw [h.read x vx hmx]; exact hv)) hk)

/-- A step through an operation with two operands. -/
theorem ends_binary {a b y : Ref sig .tc} {f : a.ty.Contents Val → b.ty.Contents Val → y.ty.Contents Val} {ha hb hy}
    (h : Agrees R K V) {va : a.ty.Contents Val} {vb : b.ty.Contents Val} (vy : y.ty.Contents Val)
    (hma : (⟨a, va⟩ : Known sig Val) ∈ K) (hmb : (⟨b, vb⟩ : Known sig Val) ∈ K) (hv : f va vb = vy) (hk : y ∉ R)
    (k : ∀ V' : Valuation τ sig Val, Agrees (y :: R) ((⟨y, vy⟩ : Known sig Val) :: K) V' → Ends ops V' Q) :
    Ends (binary (τ := τ) a b y f ha hb hy :: ops) V Q :=
  k _ (agrees_cons _ y vy h (fun _ hr => binary_result_ne a b y f ha hb hy V hr)
    ((binary_result a b y f ha hb hy V).trans (by rw [h.read a va hma, h.read b vb hmb]; exact hv)) hk)

/-- A step through an operation with three operands. -/
theorem ends_ternary {c a b y : Ref sig .tc}
    {f : c.ty.Contents Val → a.ty.Contents Val → b.ty.Contents Val → y.ty.Contents Val} {hc ha hb hy}
    (h : Agrees R K V) {vc : c.ty.Contents Val} {va : a.ty.Contents Val} {vb : b.ty.Contents Val} (vy : y.ty.Contents Val)
    (hmc : (⟨c, vc⟩ : Known sig Val) ∈ K) (hma : (⟨a, va⟩ : Known sig Val) ∈ K) (hmb : (⟨b, vb⟩ : Known sig Val) ∈ K)
    (hv : f vc va vb = vy) (hk : y ∉ R)
    (k : ∀ V' : Valuation τ sig Val, Agrees (y :: R) ((⟨y, vy⟩ : Known sig Val) :: K) V' → Ends ops V' Q) :
    Ends (ternary (τ := τ) c a b y f hc ha hb hy :: ops) V Q :=
  k _ (agrees_cons _ y vy h (fun _ hr => ternary_result_ne a b c y f hc ha hb hy V hr)
    ((ternary_result c a b y f hc ha hb hy V).trans
      (by rw [h.read c vc hmc, h.read a va hma, h.read b vb hmb]; exact hv)) hk)

/-- A step through a reshape. -/
theorem ends_reshape {x y : Ref sig .tc} {he : x.ty.elt = y.ty.elt} {hn : x.ty.shape.ShapeCasts y.ty.shape} {hx hy}
    (h : Agrees R K V) {vx : x.ty.Contents Val} (vy : y.ty.Contents Val) (hmx : (⟨x, vx⟩ : Known sig Val) ∈ K)
    (hv : (fun i => he ▸ shapeCast y.ty.shape vx hn i) = vy) (hk : y ∉ R)
    (k : ∀ V' : Valuation τ sig Val, Agrees (y :: R) ((⟨y, vy⟩ : Known sig Val) :: K) V' → Ends ops V' Q) :
    Ends (reshape (τ := τ) (Val := Val) x y he hn hx hy :: ops) V Q :=
  k _ (agrees_cons _ y vy h (fun _ hr => reshape_result_ne x y he hn hx hy V hr)
    ((reshape_result x y he hn hx hy V).trans (by rw [h.read x vx hmx]; exact hv)) hk)

end Steps

/-- Finds an entry in a literal list. -/
macro "stage_mem" : tactic =>
  `(tactic| repeat (first | exact List.mem_cons_self | apply List.mem_cons_of_mem))

end Idealize.ShloMosaic.RunStages
-- ==== Proof.RefRun.lean ====
/-
  The reference program's run, followed one operation at a time.

  The reference is a straight line of 24 host operations on tensors. Run from any memory, every execution ends with each
  buffer at the fold of the operations' results over the launch contents. That fold is read here stage by stage: a list
  of the references written so far is kept, each with the tensor it holds, named as the stage's one operation applied to
  the earlier stages' tensors; an operation reads its operands off the list and adds its result. At the end the result
  buffer holds the last stage's tensor of the four arguments' launch contents, and the arguments are as they were.

  An operation of a called function is stated over references that carry the type of the tensor they hold, its function
  moved to the buffers' own types along the proof that the two types agree. For a given buffer the two types are the
  same type, the moves are the identity, and such an operation is followed like any other.
-/
import proofs.«178336_g87050397155999_cont_sun_m_51_4_alg».proof.Proof.Gen.ReferenceIdeal
import proofs.«178336_g87050397155999_cont_sun_m_51_4_alg».proof.Proof.RefRead
import proofs.«178336_g87050397155999_cont_sun_m_51_4_alg».proof.Proof.LibRunStages
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo
open Idealize.ShloMosaic.RunStages Cert.ReferenceIdeal.ReadP

/-! ## Steps through operations over typed references -/

section Typed

variable {τ' : Topo} {sig' : RefSig} {Val : EltTy → Type}
  {R : List (Ref sig' .tc)} {K : List (Known sig' Val)} {V : Valuation τ' sig' Val}
  {Q : Valuation τ' sig' Val → Prop} {ops' : List (HloOp τ' sig' Val)}

/-- The list of the given references, each at the contents the valuation has there. -/
theorem agrees_launch (rs : List (Ref sig' .tc)) (V : Valuation τ' sig' Val) :
    Agrees rs (rs.map fun r => (⟨r, V (Proc.devRef .tc r)⟩ : Known sig' Val)) V :=
  ⟨fun p hp => by obtain ⟨r, hr, rfl⟩ := List.mem_map.mp hp; exact hr,
   fun p hp => by obtain ⟨r, hr, rfl⟩ := List.mem_map.mp hp; rfl⟩

/-- No operand, the result reference typed at its own buffer's type. -/
theorem ends_tnullary (y : Ref sig' .tc) {hy : y.ty = y.ty} {dy uy} {v : y.ty.Contents Val} (h : Agrees R K V)
    (vy : y.ty.Contents Val) (hv : v = vy) (hk : y ∉ R)
    (k : ∀ V' : Valuation τ' sig' Val, Agrees (y :: R) ((⟨y, vy⟩ : Known sig' Val) :: K) V' → Ends ops' V' Q) :
    Ends (TRef.nullary (τ := τ') (⟨y, hy, dy, uy⟩ : TRef sig' y.ty) v :: ops') V Q :=
  ends_nullary h vy hv hk k

/-- One operand, both references typed at their own buffers' types. -/
theorem ends_tunary (x y : Ref sig' .tc) {hx : x.ty = x.ty} {dx ux} {hy : y.ty = y.ty} {dy uy}
    {f : x.ty.Contents Val → y.ty.Contents Val} (h : Agrees R K V)
    {vx : x.ty.Contents Val} (vy : y.ty.Contents Val) (hmx : (⟨x, vx⟩ : Known sig' Val) ∈ K) (hv : f vx = vy) (hk : y ∉ R)
    (k : ∀ V' : Valuation τ' sig' Val, Agrees (y :: R) ((⟨y, vy⟩ : Known sig' Val) :: K) V' → Ends ops' V' Q) :
    Ends (TRef.unary (τ := τ') (⟨x, hx, dx, ux⟩ : TRef sig' x.ty) (⟨y, hy, dy, uy⟩ : TRef sig' y.ty) f :: ops') V Q :=
  ends_unary h vy hmx hv hk k

/-- Two operands, the three references typed at their own buffers' types. -/
theorem ends_tbinary (a b y : Ref sig' .tc) {ha : a.ty = a.ty} {da ua} {hb : b.ty = b.ty} {db ub} {hy : y.ty = y.ty} {dy uy}
    {f : a.ty.Contents Val → b.ty.Contents Val → y.ty.Contents Val} (h : Agrees R K V)
    {va : a.ty.Contents Val} {vb : b.ty.Contents Val} (vy : y.ty.Contents Val)
    (hma : (⟨a, va⟩ : Known sig' Val) ∈ K) (hmb : (⟨b, vb⟩ : Known sig' Val) ∈ K) (hv : f va vb = vy) (hk : y ∉ R)
    (k : ∀ V' : Valuation τ' sig' Val, Agrees (y :: R) ((⟨y, vy⟩ : Known sig' Val) :: K) V' → Ends ops' V' Q) :
    Ends (TRef.binary (τ := τ') (⟨a, ha, da, ua⟩ : TRef sig' a.ty) (⟨b, hb, db, ub⟩ : TRef sig' b.ty)
      (⟨y, hy, dy, uy⟩ : TRef sig' y.ty) f :: ops') V Q :=
  ends_binary h vy hma hmb hv hk k

end Typed

variable {F : FTy → Type} [FloatOps F]

/-- The reference's 24 operations in order; the operations of its two called functions stand where the calls are, over typed references. -/
abbrev ops : List (HloOp τ sig (Elt F)) :=
  [ unary main_arg2 main_v0 ((transpose S128x128 [1, 0] · transposes_S128x128_S128x128_1_0) : (⟨S128x128, .f32⟩ : BufTy).Contents (Elt F) → (⟨S128x128, .f32⟩ : BufTy).Contents (Elt F)),
    binary main_arg0 main_v0 main_v1 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v1 main_v2 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x128, .f32⟩) main_call0_v0) (broadcastInDim S10000x128 ![] bcast_S_S10000x128),
    TRef.binary (TRef.of (T := ⟨S10000x128, .f32⟩) main_v2) (TRef.of (T := ⟨S10000x128, .f32⟩) main_call0_v0) (TRef.of (T := ⟨S10000x128, .f32⟩) main_v3) maximumf,
    unary main_arg3 main_v4 ((transpose S128x64 [1, 0] · transposes_S64x128_S128x64_1_0) : (⟨S64x128, .f32⟩ : BufTy).Contents (Elt F) → (⟨S128x64, .f32⟩ : BufTy).Contents (Elt F)),
    binary main_v3 main_v4 main_v5 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    binary main_arg1 main_v5 main_v6 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    TRef.nullary (TRef.of (T := ⟨S_, .f32⟩) main_call1_cst) (constant S_ .f32 0xFF800000#32),
    TRef.binary (TRef.of (T := ⟨S10000x64, .f32⟩) main_v6) (TRef.of (T := ⟨S_, .f32⟩) main_call1_cst) (TRef.of (T := ⟨S10000, .f32⟩) main_call1_v0) (fun x v => Host.reduce FloatOps.maximumf x v reducesTo_S10000x64_S10000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S10000, .f32⟩) main_call1_v1) (broadcastInDim S10000 ![] bcast_S_S10000),
    TRef.binary (TRef.of (T := ⟨S10000, .f32⟩) main_call1_v1) (TRef.of (T := ⟨S10000, .f32⟩) main_call1_v0) (TRef.of (T := ⟨S10000, .f32⟩) main_call1_v2) maximumf,
    TRef.unary (TRef.of (T := ⟨S10000, .f32⟩) main_call1_v2) (TRef.of (T := ⟨S10000x1, .f32⟩) main_call1_v3) (broadcastInDim S10000x1 ![0] bcast_S10000_S10000x1_0),
    TRef.unary (TRef.of (T := ⟨S10000x1, .f32⟩) main_call1_v3) (TRef.of (T := ⟨S10000x64, .f32⟩) main_call1_v4) (broadcastInDim S10000x64 ![0, 1] bcast_S10000x1_S10000x64_0_1),
    TRef.binary (TRef.of (T := ⟨S10000x64, .f32⟩) main_v6) (TRef.of (T := ⟨S10000x64, .f32⟩) main_call1_v4) (TRef.of (T := ⟨S10000x64, .f32⟩) main_call1_v5) subf,
    TRef.unary (TRef.of (T := ⟨S10000x64, .f32⟩) main_call1_v5) (TRef.of (T := ⟨S10000x64, .f32⟩) main_call1_v6) Host.exp,
    TRef.nullary (TRef.of (T := ⟨S_, .f32⟩) main_call1_cst_1) (constant S_ .f32 0x00000000#32),
    TRef.binary (TRef.of (T := ⟨S10000x64, .f32⟩) main_call1_v6) (TRef.of (T := ⟨S_, .f32⟩) main_call1_cst_1) (TRef.of (T := ⟨S10000, .f32⟩) main_call1_v7) (fun x v => Host.reduceAdd x v reducesTo_S10000x64_S10000_d1 h_S_),
    TRef.unary (TRef.of (T := ⟨S10000, .f32⟩) main_call1_v7) (TRef.of (T := ⟨S10000x1, .f32⟩) main_call1_v8) (broadcastInDim S10000x1 ![0] bcast_S10000_S10000x1_0),
    TRef.unary (TRef.of (T := ⟨S10000x1, .f32⟩) main_call1_v8) (TRef.of (T := ⟨S10000x1, .f32⟩) main_call1_v9) Host.log,
    TRef.unary (TRef.of (T := ⟨S10000x1, .f32⟩) main_call1_v9) (TRef.of (T := ⟨S10000x64, .f32⟩) main_call1_v10) (broadcastInDim S10000x64 ![0, 1] bcast_S10000x1_S10000x64_0_1),
    TRef.binary (TRef.of (T := ⟨S10000x64, .f32⟩) main_call1_v5) (TRef.of (T := ⟨S10000x64, .f32⟩) main_call1_v10) (TRef.of (T := ⟨S10000x64, .f32⟩) main_v7) subf ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., binary_bufs_sub .., binary_bufs_sub .., nullary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The contents after the line -/

/-- From any contents V: after the 24 operations the result buffer holds the last stage's tensor of V at the four
    arguments, and the arguments hold what V has there. -/
theorem after_ops (V : Valuation τ sig (Elt F)) :
    after (ops (F := F)) V (Proc.devRef .tc main_v7) = val_main_v7 (F := F) (V (Proc.devRef .tc main_arg0)) (V (Proc.devRef .tc main_arg1)) (V (Proc.devRef .tc main_arg2)) (V (Proc.devRef .tc main_arg3))
      ∧ after (ops (F := F)) V (Proc.devRef .tc main_arg0) = V (Proc.devRef .tc main_arg0)
      ∧ after (ops (F := F)) V (Proc.devRef .tc main_arg1) = V (Proc.devRef .tc main_arg1)
      ∧ after (ops (F := F)) V (Proc.devRef .tc main_arg2) = V (Proc.devRef .tc main_arg2)
      ∧ after (ops (F := F)) V (Proc.devRef .tc main_arg3) = V (Proc.devRef .tc main_arg3) := by
  have h0 : Agrees [main_arg0, main_arg1, main_arg2, main_arg3]
      [(⟨main_arg0, V (Proc.devRef .tc main_arg0)⟩ : Known sig (Elt F)), ⟨main_arg1, V (Proc.devRef .tc main_arg1)⟩,
        ⟨main_arg2, V (Proc.devRef .tc main_arg2)⟩, ⟨main_arg3, V (Proc.devRef .tc main_arg3)⟩] V :=
    agrees_launch [main_arg0, main_arg1, main_arg2, main_arg3] V
  show Ends (ops (F := F)) V fun V' =>
    V' (Proc.devRef .tc main_v7) = val_main_v7 (F := F) (V (Proc.devRef .tc main_arg0)) (V (Proc.devRef .tc main_arg1)) (V (Proc.devRef .tc main_arg2)) (V (Proc.devRef .tc main_arg3))
      ∧ V' (Proc.devRef .tc main_arg0) = V (Proc.devRef .tc main_arg0)
      ∧ V' (Proc.devRef .tc main_arg1) = V (Proc.devRef .tc main_arg1)
      ∧ V' (Proc.devRef .tc main_arg2) = V (Proc.devRef .tc main_arg2)
      ∧ V' (Proc.devRef .tc main_arg3) = V (Proc.devRef .tc main_arg3)
  refine ends_unary h0 (val_main_v0 (F := F) (V (Proc.devRef .tc main_arg2))) (by stage_mem) rfl (by decide) fun V1 h1 => ?_
  refine ends_binary h1 (val_main_v1 (F := F) (V (Proc.devRef .tc main_arg0)) (V (Proc.devRef .tc main_arg2))) (by stage_mem) (by stage_mem) rfl (by decide) fun V2 h2 => ?_
  refine ends_binary h2 (val_main_v2 (F := F) (V (Proc.devRef .tc main_arg0)) (V (Proc.devRef .tc main_arg1)) (V (Proc.devRef .tc main_arg2))) (by stage_mem) (by stage_mem) rfl (by decide) fun V3 h3 => ?_
  refine ends_tnullary main_call0_cst h3 (val_main_call0_cst (F := F)) rfl (by decide) fun V4 h4 => ?_
  refine ends_tunary main_call0_cst main_call0_v0 h4 (val_main_call0_v0 (F := F)) (by stage_mem) rfl (by decide) fun V5 h5 => ?_
  refine ends_tbinary main_v2 main_call0_v0 main_v3 h5 (val_main_v3 (F := F) (V (Proc.devRef .tc main_arg0)) (V (Proc.devRef .tc main_arg1)) (V (Proc.devRef .tc main_arg2))) (by stage_mem) (by stage_mem) rfl (by decide) fun V6 h6 => ?_
  refine ends_unary h6 (val_main_v4 (F := F) (V (Proc.devRef .tc main_arg3))) (by stage_mem) rfl (by decide) fun V7 h7 => ?_
  refine ends_binary h7 (val_main_v5 (F := F) (V (Proc.devRef .tc main_arg0)) (V (Proc.devRef .tc main_arg1)) (V (Proc.devRef .tc main_arg2)) (V (Proc.devRef .tc main_arg3))) (by stage_mem) (by stage_mem) rfl (by decide) fun V8 h8 => ?_
  refine ends_binary h8 (val_main_v6 (F := F) (V (Proc.devRef .tc main_arg0)) (V (Proc.devRef .tc main_arg1)) (V (Proc.devRef .tc main_arg2)) (V (Proc.devRef .tc main_arg3))) (by stage_mem) (by stage_mem) rfl (by decide) fun V9 h9 => ?_
  refine ends_tnullary main_call1_cst h9 (val_main_call1_cst (F := F)) rfl (by decide) fun V10 h10 => ?_
  refine ends_tbinary main_v6 main_call1_cst main_call1_v0 h10 (val_main_call1_v0 (F := F) (V (Proc.devRef .tc main_arg0)) (V (Proc.devRef .tc main_arg1)) (V (Proc.devRef .tc main_arg2)) (V (Proc.devRef .tc main_arg3))) (by stage_mem) (by stage_mem) rfl (by decide) fun V11 h11 => ?_
  refine ends_tnullary main_call1_cst_0 h11 (val_main_call1_cst_0 (F := F)) rfl (by decide) fun V12 h12 => ?_
  refine ends_tunary main_call1_cst_0 main_call1_v1 h12 (val_main_call1_v1 (F := F)) (by stage_mem) rfl (by decide) fun V13 h13 => ?_
  refine ends_tbinary main_call1_v1 main_call1_v0 main_call1_v2 h13 (val_main_call1_v2 (F := F) (V (Proc.devRef .tc main_arg0)) (V (Proc.devRef .tc main_arg1)) (V (Proc.devRef .tc main_arg2)) (V (Proc.devRef .tc main_arg3))) (by stage_mem) (by stage_mem) rfl (by decide) fun V14 h14 => ?_
  refine ends_tunary main_call1_v2 main_call1_v3 h14 (val_main_call1_v3 (F := F) (V (Proc.devRef .tc main_arg0)) (V (Proc.devRef .tc main_arg1)) (V (Proc.devRef .tc main_arg2)) (V (Proc.devRef .tc main_arg3))) (by stage_mem) rfl (by decide) fun V15 h15 => ?_
  refine ends_tunary main_call1_v3 main_call1_v4 h15 (val_main_call1_v4 (F := F) (V (Proc.devRef .tc main_arg0)) (V (Proc.devRef .tc main_arg1)) (V (Proc.devRef .tc main_arg2)) (V (Proc.devRef .tc main_arg3))) (by stage_mem) rfl (by decide) fun V16 h16 => ?_
  refine ends_tbinary main_v6 main_call1_v4 main_call1_v5 h16 (val_main_call1_v5 (F := F) (V (Proc.devRef .tc main_arg0)) (V (Proc.devRef .tc main_arg1)) (V (Proc.devRef .tc main_arg2)) (V (Proc.devRef .tc main_arg3))) (by stage_mem) (by stage_mem) rfl (by decide) fun V17 h17 => ?_
  refine ends_tunary main_call1_v5 main_call1_v6 h17 (val_main_call1_v6 (F := F) (V (Proc.devRef .tc main_arg0)) (V (Proc.devRef .tc main_arg1)) (V (Proc.devRef .tc main_arg2)) (V (Proc.devRef .tc main_arg3))) (by stage_mem) rfl (by decide) fun V18 h18 => ?_
  refine ends_tnullary main_call1_cst_1 h18 (val_main_call1_cst_1 (F := F)) rfl (by decide) fun V19 h19 => ?_
  refine ends_tbinary main_call1_v6 main_call1_cst_1 main_call1_v7 h19 (val_main_call1_v7 (F := F) (V (Proc.devRef .tc main_arg0)) (V (Proc.devRef .tc main_arg1)) (V (Proc.devRef .tc main_arg2)) (V (Proc.devRef .tc main_arg3))) (by stage_mem) (by stage_mem) rfl (by decide) fun V20 h20 => ?_
  refine ends_tunary main_call1_v7 main_call1_v8 h20 (val_main_call1_v8 (F := F) (V (Proc.devRef .tc main_arg0)) (V (Proc.devRef .tc main_arg1)) (V (Proc.devRef .tc main_arg2)) (V (Proc.devRef .tc main_arg3))) (by stage_mem) rfl (by decide) fun V21 h21 => ?_
  refine ends_tunary main_call1_v8 main_call1_v9 h21 (val_main_call1_v9 (F := F) (V (Proc.devRef .tc main_arg0)) (V (Proc.devRef .tc main_arg1)) (V (Proc.devRef .tc main_arg2)) (V (Proc.devRef .tc main_arg3))) (by stage_mem) rfl (by decide) fun V22 h22 => ?_
  refine ends_tunary main_call1_v9 main_call1_v10 h22 (val_main_call1_v10 (F := F) (V (Proc.devRef .tc main_arg0)) (V (Proc.devRef .tc main_arg1)) (V (Proc.devRef .tc main_arg2)) (V (Proc.devRef .tc main_arg3))) (by stage_mem) rfl (by decide) fun V23 h23 => ?_
  refine ends_tbinary main_call1_v5 main_call1_v10 main_v7 h23 (val_main_v7 (F := F) (V (Proc.devRef .tc main_arg0)) (V (Proc.devRef .tc main_arg1)) (V (Proc.devRef .tc main_arg2)) (V (Proc.devRef .tc main_arg3))) (by stage_mem) (by stage_mem) rfl (by decide) fun V24 h24 => ?_
  exact ends_nil ⟨h24.read main_v7 _ (by stage_mem), h24.read main_arg0 _ (by stage_mem), h24.read main_arg1 _ (by stage_mem),
    h24.read main_arg2 _ (by stage_mem), h24.read main_arg3 _ (by stage_mem)⟩

/-! ## The run -/

/-- On every device, from any memory with zero counters: every weakly fair execution of the reference terminates with the
    result buffer at the last stage's tensor of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7) = val_main_v7 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      have e := after_ops (F := F) (launchContents m c)
      ⟨(h c main_v7).trans e.1, (h c main_arg0).trans e.2.1, (h c main_arg1).trans e.2.2.1,
        (h c main_arg2).trans e.2.2.2.1, (h c main_arg3).trans e.2.2.2.2⟩)
    (run_seq scopedRefs_eq scopedSems_eq defs main (fun _ => ops) main_eq (fun _ => ops_sub) m ρ)

end Cert.ReferenceIdeal.RunH

end
-- ==== Proof.lean ====
/-
  The certificate: a fused two-layer graph convolution with a row-wise log-softmax, as a two-pass pipelined kernel over
  400-row blocks of the adjacency matrix, against the plain composition of the four matrix products, the rectifier and
  the log-softmax.

  At every float instance the kernel runs to the end without a fault and leaves its four argument arrays as they were:
  the body is followed case by case over the grid (the first point, the rest of the first pass, the second pass) against
  an invariant that says what the two scratch arrays hold between points.  On the extended reals the output array ends
  holding, block by block, the log-softmax of A·H₂ for the rows of the block, where the second scratch array holds
  H₂ = max(A·(X·W₁ᵀ), 0)·W₂ᵀ whole by the time the second pass reads it; a block of rows of a product is the product of
  the block of rows, so the blocks are the rows of one function of the arguments, and that function is what the
  reference computes operation by operation.  No rewrite was applied in idealizing the kernel, so the second-to-last claim is trivial.
-/
import proofs.«178336_g87050397155999_cont_sun_m_51_4_alg».proof.Defs
import proofs.«178336_g87050397155999_cont_sun_m_51_4_alg».proof.Proof.Gen.Kernel
import proofs.«178336_g87050397155999_cont_sun_m_51_4_alg».proof.Proof.Gen.KernelIdeal
import proofs.«178336_g87050397155999_cont_sun_m_51_4_alg».proof.Proof.Gen.ReferenceIdeal
import proofs.«178336_g87050397155999_cont_sun_m_51_4_alg».proof.Proof.Gen.Pre_finite_inputs
import proofs.«178336_g87050397155999_cont_sun_m_51_4_alg».proof.Proof.KbBody
import proofs.«178336_g87050397155999_cont_sun_m_51_4_alg».proof.Proof.KiBody
import proofs.«178336_g87050397155999_cont_sun_m_51_4_alg».proof.Proof.KiFinal
import proofs.«178336_g87050397155999_cont_sun_m_51_4_alg».proof.Proof.RefSpec
import proofs.«178336_g87050397155999_cont_sun_m_51_4_alg».proof.Proof.RefRun
import Idealize.ShloMosaic.Adequacy
import Idealize.ShloMosaic.Init

noncomputable section

namespace Cert.Proof

open Idealize.ShloMosaic Idealize.SL.Sem

/-- The kernel, word for word, runs and leaves its arguments unchanged. -/
theorem frame_kernel [Cert.Kernel.Facts] [Cert.Pre_finite_inputs.Facts] : Cert.frame_Kernel := fun m ρ _ => Cert.Kernel.Body.frame m ρ

/-- So does its reading on the extended reals. -/
theorem frame_kernelIdeal [Cert.KernelIdeal.Facts] [Cert.Pre_finite_inputs.Facts] : Cert.frame_KernelIdeal := fun m ρ _ => Cert.KernelIdeal.Body.frame m ρ

/-- The reference is a straight line of host operations: it runs, and writes no argument. -/
theorem frame_reference [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.RunH.run (F := Ideal) m ρ)

/-- The idealization rewrote nothing. -/
theorem preserves : Cert.preserves_Kernel_KernelIdeal := trivial

/-- On the extended reals both programs end with the same array: the kernel's output array is the specification of the
    argument arrays, and so is the reference's last stage. -/
theorem algebraic [Cert.KernelIdeal.Facts] [Cert.ReferenceIdeal.Facts] [Cert.Pre_finite_inputs.Facts] : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.RunH.run (F := Ideal) m' ρ')
  rw [(hagree c).1, (hagree c).2.1, (hagree c).2.2.1, (hagree c).2.2.2]
  exact Cert.Gcn.Ref.result_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
